-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S65536x1024 .f32) (main_arg1 : FVec F S65536x1024 .f32) (main_arg2 : FVec F S1024 .f32) (main_arg3 : FVec F S1024 .f32) (main_arg4 : FVec F S1024 .f32) (main_arg5 : FVec F S1024 .f32) (main_arg6 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S65536x1024 : Shape := ⟨2, ![65536, 1024]⟩
abbrev S1024 : Shape := ⟨1, ![1024]⟩
abbrev S16x1024 : Shape := ⟨2, ![16, 1024]⟩
abbrev S1024x1024 : Shape := ⟨2, ![1024, 1024]⟩
abbrev S8x1024 : Shape := ⟨2, ![8, 1024]⟩
abbrev S1x1024 : Shape := ⟨2, ![1, 1024]⟩
abbrev S_ : Shape := ⟨0, ![]⟩

abbrev nBuf : Space → Nat
  | .hbm => 98
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S65536x1024, .f32⟩
  | .hbm, ⟨97, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77_0 : Ref sig .tc := ⟨.hbm, 96, rfl⟩
abbrev main_v77_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S8x1024_S8x1024_0_0 : ∀ a, (![0, 0] : Fin 2 → Nat) a + S8x1024.size a ≤ S8x1024.size a
  h_S8x1024 : 0 < S8x1024.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S8x1024_S8x1024 : S8x1024.ShapeCasts S8x1024
  shapeCasts_S1x1024_S1x1024 : S1x1024.ShapeCasts S1x1024
  broadcasts_S1x1024_S8x1024 : S1x1024.Broadcasts S8x1024
  slices_S16x1024_S1x1024_0_0 : S16x1024.Slices ![0, 0] S1x1024
  slices_S16x1024_S1x1024_8_0 : S16x1024.Slices ![8, 0] S1x1024
  bcast_S_S1x1024 : S_.BroadcastsInDim S1x1024 (![] : Fin 0 → Fin S1x1024.rank)
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x1024.size a
  hwx0_2 : ∀ i : grid0.Coords, EltTy.bits .f32 = 32 ∨ (Rect.block (s := S16x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S16x1024.size a
  hwx0_5 : ∀ i : grid0.Coords, EltTy.bits .f32 = 32 ∨ (Rect.block (s := S16x1024) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S16x1024.size a
  hwx0_6 : ∀ i : grid0.Coords, EltTy.bits .f32 = 32 ∨ (Rect.block (s := S16x1024) S8x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S65536x1024.size a
  hwx1_0 : ∀ i : grid1.Coords, EltTy.bits .f32 = 32 ∨ (Rect.block (s := S65536x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S65536x1024.size a
  hwx1_1 : ∀ i : grid1.Coords, EltTy.bits .f32 = 32 ∨ (Rect.block (s := S65536x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1024.size a ≤ S65536x1024.size a
  hwx1_8 : ∀ i : grid1.Coords, EltTy.bits .f32 = 32 ∨ (Rect.block (s := S65536x1024) S1024x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S65536x1024.size a
  hwx1_9 : ∀ i : grid1.Coords, EltTy.bits .f32 = 32 ∨ (Rect.block (s := S65536x1024) S1024x1024.size (cc1_transform_9 i) (hinb1_9 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S8x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S8x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v72) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v76) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v77_0) S1024x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v77_1) S1024x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where
  halias1_8 : Pipeline.Aliased win1 0 8
  halias1_9 : Pipeline.Aliased win1 1 9

variable [Facts]
-- ==== ReferenceIdeal.lean ====
abbrev S65536x1024 : Shape := ⟨2, ![65536, 1024]⟩
abbrev S1024 : Shape := ⟨1, ![1024]⟩
abbrev S_ : Shape := ⟨0, ![]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S65536x1024, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S65536x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1x1024, .f32⟩
  | .hbm, ⟨65, _⟩ => ⟨S65536x1024, .f32⟩
  | .hbm, ⟨66, _⟩ => ⟨S65536x1024, .f32⟩
  | .hbm, ⟨67, _⟩ => ⟨S1x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S1x1024, .f32⟩
  | .hbm, ⟨72, _⟩ => ⟨S65536x1024, .f32⟩
  | .hbm, ⟨73, _⟩ => ⟨S65536x1024, .f32⟩
  | .hbm, ⟨74, _⟩ => ⟨S1x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S1x1024, .f32⟩
  | .hbm, ⟨79, _⟩ => ⟨S65536x1024, .f32⟩
  | .hbm, ⟨80, _⟩ => ⟨S65536x1024, .f32⟩
  | .hbm, ⟨81, _⟩ => ⟨S1x1024, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S1x1024, .f32⟩
  | .hbm, ⟨86, _⟩ => ⟨S65536x1024, .f32⟩
  | .hbm, ⟨87, _⟩ => ⟨S65536x1024, .f32⟩
  | .hbm, ⟨88, _⟩ => ⟨S1x1024, .f32⟩
  | .hbm, ⟨89, _⟩ => ⟨S65536x1024, .f32⟩
  | .hbm, ⟨90, _⟩ => ⟨S65536x1024, .f32⟩
  | .hbm, ⟨91, _⟩ => ⟨S1x1024, .f32⟩
  | .hbm, ⟨92, _⟩ => ⟨S65536x1024, .f32⟩
  | .hbm, ⟨93, _⟩ => ⟨S65536x1024, .f32⟩
  | .hbm, ⟨94, _⟩ => ⟨S65536x1024, .f32⟩
  | .hbm, ⟨95, _⟩ => ⟨S1x1024, .f32⟩
  | .hbm, ⟨96, _⟩ => ⟨S65536x1024, .f32⟩
  | .hbm, ⟨97, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.KRun.lean ====
/-
  The idealized kernel's run with its two result arrays named.

  @main is: the statistics pass (region 0), a stretch of host arithmetic on [1,1024] rows, the apply pass (region 1).
  The buffer contents at the segment boundaries are a fold from the launch memory: `W0` (launch), `W1` (after the
  statistics pass: its five [16,1024] partial-sum arrays written), `W2` (after the host stretch), `W3` (after the apply
  pass: its two [65536,1024] output arrays written).  Every weakly fair execution terminates in a state whose unscoped
  buffers hold `W3`; read at the two result buffers and the seven arguments this is the run below.
-/
import proofs.«158268_j23862838297129_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents `W3` and the seven arguments as launched. -/
theorem run_W3 : θ_run defs (onTc (τ := τ) (main (F := F))) ⟨m, fun _ => 0, ρ⟩ (fun r => ∀ c : Dev nD,
      r.2.mem ((c.tc : Thread nD τ).loc main_v77_0) = W3 m ρ c (Proc.devRef .tc main_v77_0)
      ∧ r.2.mem ((c.tc : Thread nD τ).loc main_v77_1) = W3 m ρ c (Proc.devRef .tc main_v77_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v77_0 (by decide)),
       h c _ (mem_uc main_v77_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.KValue

end
-- ==== Proof.KStatsPieces.lean ====
/-
  The statistics pass, one grid point at a time.

  At a grid point the body loads the [1024,1024] blocks x0 (real) and x1 (imaginary) and adds to each of its five
  [8,1024] output buffers the block's column sums broadcast to the eight rows: Σ x0, Σ x1, Σ x0², Σ x1², Σ x0·x1.
  At the first point of a core's run (the "reset" case) each buffer is first overwritten with zeros, which the
  body then reads back; at every later point (the "accumulate" case) it reads what the point before left.
  The lemmas below say, per output and per case, which payload of the two blocks and of the running contents the
  buffer holds after the body: the one covering store's value, its loads reading whole buffers.
-/
import proofs.«158268_j23862838297129_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KStats

open Cert.KernelIdeal Cert.KernelIdeal.Gen

variable {F : FTy → Type} [FloatOps F]

theorem hz : (![0, 0] : Fin 2 → Nat) = fun _ => 0 := funext fun a => by fin_cases a <;> rfl

/-- Case "accumulate": output 2's buffer after the body, from the two input blocks and its own running contents. -/
theorem outB2 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : ¬cond0_0 i) (x0 x1 : Vec F S1024x1024 .f32) (xo2 xo3 xo4 xo5 xo6 : Vec F S8x1024 .f32) :
    out0_B_2 c i a2 h2 a3 h3 a4 h4 a5 h5 a6 h6 a7 h7 a8 h8 hc x0 x1 xo2 xo3 xo4 xo5 xo6 = k0_pay11 x0 xo2 := by
  unfold out0_B_2
  rw [View.read_writes_eq_canon _ _ _ (cover0_B_2 c i a2 h2 a3 h3 a4 h4 a5 h5 a6 h6 a7 h7 a8 h8 hc x0 x1 xo2 xo3 xo4 xo5 xo6)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x1024) hz, View.ld_unit_zero (S := S8x1024) hz]

/-- Case "reset": output 2's buffer after the body: the zero block stored, read back, and the block's column sums added. -/
theorem outA2 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : cond0_0 i) (x0 x1 : Vec F S1024x1024 .f32) :
    out0_A_2 c i a2 h2 a3 h3 a4 h4 a5 h5 a6 h6 a7 h7 a8 h8 hc x0 x1 = k0_pay11 x0 k0_pay4 := by
  unfold out0_A_2
  rw [View.read_writes_eq_canon _ _ _ (cover0_A_2 c i a2 h2 a3 h3 a4 h4 a5 h5 a6 h6 a7 h7 a8 h8 hc x0 x1)]
  unfold kernelRun0_A
  dsimp only
  sl_unfold_words
  rw [View.canon_cons_unit_zero (S := S8x1024) hz]
  simp only [View.readCov_unit_zero (S := S8x1024) _ hz, View.readAt_eq_ld, h2.read_unread, h3.read_unread, View.ld_unit_zero (S := S1024x1024) hz, View.ld_unit_zero (S := S8x1024) hz]

/-- Case "accumulate": output 3's buffer after the body, from the two input blocks and its own running contents. -/
theorem outB3 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : ¬cond0_0 i) (x0 x1 : Vec F S1024x1024 .f32) (xo2 xo3 xo4 xo5 xo6 : Vec F S8x1024 .f32) :
    out0_B_3 c i a2 h2 a3 h3 a4 h4 a5 h5 a6 h6 a7 h7 a8 h8 hc x0 x1 xo2 xo3 xo4 xo5 xo6 = k0_pay12 x1 xo3 := by
  unfold out0_B_3
  rw [View.read_writes_eq_canon _ _ _ (cover0_B_3 c i a2 h2 a3 h3 a4 h4 a5 h5 a6 h6 a7 h7 a8 h8 hc x0 x1 xo2 xo3 xo4 xo5 xo6)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x1024) hz, View.ld_unit_zero (S := S8x1024) hz]

/-- Case "reset": output 3's buffer after the body: the zero block stored, read back, and the block's column sums added. -/
theorem outA3 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : cond0_0 i) (x0 x1 : Vec F S1024x1024 .f32) :
    out0_A_3 c i a2 h2 a3 h3 a4 h4 a5 h5 a6 h6 a7 h7 a8 h8 hc x0 x1 = k0_pay12 x1 k0_pay5 := by
  unfold out0_A_3
  rw [View.read_writes_eq_canon _ _ _ (cover0_A_3 c i a2 h2 a3 h3 a4 h4 a5 h5 a6 h6 a7 h7 a8 h8 hc x0 x1)]
  unfold kernelRun0_A
  dsimp only
  sl_unfold_words
  rw [View.canon_cons_unit_zero (S := S8x1024) hz]
  simp only [View.readCov_unit_zero (S := S8x1024) _ hz, View.readAt_eq_ld, h2.read_unread, h3.read_unread, View.ld_unit_zero (S := S1024x1024) hz, View.ld_unit_zero (S := S8x1024) hz]

/-- Case "accumulate": output 4's buffer after the body, from the two input blocks and its own running contents. -/
theorem outB4 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : ¬cond0_0 i) (x0 x1 : Vec F S1024x1024 .f32) (xo2 xo3 xo4 xo5 xo6 : Vec F S8x1024 .f32) :
    out0_B_4 c i a2 h2 a3 h3 a4 h4 a5 h5 a6 h6 a7 h7 a8 h8 hc x0 x1 xo2 xo3 xo4 xo5 xo6 = k0_pay1 (k0_pay13 xo4) (k0_pay14 x0) := by
  unfold out0_B_4
  rw [View.read_writes_eq_canon _ _ _ (cover0_B_4 c i a2 h2 a3 h3 a4 h4 a5 h5 a6 h6 a7 h7 a8 h8 hc x0 x1 xo2 xo3 xo4 xo5 xo6)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x1024) hz, View.ld_unit_zero (S := S8x1024) hz]

/-- Case "reset": output 4's buffer after the body: the zero block stored, read back, and the block's column sums added. -/
theorem outA4 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : cond0_0 i) (x0 x1 : Vec F S1024x1024 .f32) :
    out0_A_4 c i a2 h2 a3 h3 a4 h4 a5 h5 a6 h6 a7 h7 a8 h8 hc x0 x1 = k0_pay1 (k0_pay13 k0_pay6) (k0_pay14 x0) := by
  unfold out0_A_4
  rw [View.read_writes_eq_canon _ _ _ (cover0_A_4 c i a2 h2 a3 h3 a4 h4 a5 h5 a6 h6 a7 h7 a8 h8 hc x0 x1)]
  unfold kernelRun0_A
  dsimp only
  sl_unfold_words
  rw [View.canon_cons_unit_zero (S := S8x1024) hz]
  simp only [View.readCov_unit_zero (S := S8x1024) _ hz, View.readAt_eq_ld, h2.read_unread, h3.read_unread, View.ld_unit_zero (S := S1024x1024) hz, View.ld_unit_zero (S := S8x1024) hz]

/-- Case "accumulate": output 5's buffer after the body, from the two input blocks and its own running contents. -/
theorem outB5 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : ¬cond0_0 i) (x0 x1 : Vec F S1024x1024 .f32) (xo2 xo3 xo4 xo5 xo6 : Vec F S8x1024 .f32) :
    out0_B_5 c i a2 h2 a3 h3 a4 h4 a5 h5 a6 h6 a7 h7 a8 h8 hc x0 x1 xo2 xo3 xo4 xo5 xo6 = k0_pay2 (k0_pay9 x1) xo5 := by
  unfold out0_B_5
  rw [View.read_writes_eq_canon _ _ _ (cover0_B_5 c i a2 h2 a3 h3 a4 h4 a5 h5 a6 h6 a7 h7 a8 h8 hc x0 x1 xo2 xo3 xo4 xo5 xo6)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x1024) hz, View.ld_unit_zero (S := S8x1024) hz]

/-- Case "reset": output 5's buffer after the body: the zero block stored, read back, and the block's column sums added. -/
theorem outA5 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : cond0_0 i) (x0 x1 : Vec F S1024x1024 .f32) :
    out0_A_5 c i a2 h2 a3 h3 a4 h4 a5 h5 a6 h6 a7 h7 a8 h8 hc x0 x1 = k0_pay2 (k0_pay9 x1) k0_pay7 := by
  unfold out0_A_5
  rw [View.read_writes_eq_canon _ _ _ (cover0_A_5 c i a2 h2 a3 h3 a4 h4 a5 h5 a6 h6 a7 h7 a8 h8 hc x0 x1)]
  unfold kernelRun0_A
  dsimp only
  sl_unfold_words
  rw [View.canon_cons_unit_zero (S := S8x1024) hz]
  simp only [View.readCov_unit_zero (S := S8x1024) _ hz, View.readAt_eq_ld, h2.read_unread, h3.read_unread, View.ld_unit_zero (S := S1024x1024) hz, View.ld_unit_zero (S := S8x1024) hz]

/-- Case "accumulate": output 6's buffer after the body, from the two input blocks and its own running contents. -/
theorem outB6 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : ¬cond0_0 i) (x0 x1 : Vec F S1024x1024 .f32) (xo2 xo3 xo4 xo5 xo6 : Vec F S8x1024 .f32) :
    out0_B_6 c i a2 h2 a3 h3 a4 h4 a5 h5 a6 h6 a7 h7 a8 h8 hc x0 x1 xo2 xo3 xo4 xo5 xo6 = k0_pay3 (k0_pay10 x0 x1) xo6 := by
  unfold out0_B_6
  rw [View.read_writes_eq_canon _ _ _ (cover0_B_6 c i a2 h2 a3 h3 a4 h4 a5 h5 a6 h6 a7 h7 a8 h8 hc x0 x1 xo2 xo3 xo4 xo5 xo6)]
  unfold kernelRun0_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S1024x1024) hz, View.ld_unit_zero (S := S8x1024) hz]

/-- Case "reset": output 6's buffer after the body: the zero block stored, read back, and the block's column sums added. -/
theorem outA6 (c : Dev nD) (i : grid0.Coords) (a2 : Memref sig .tc .vmem S1024x1024 .f32) (h2 : a2.IsWhole) (a3 : Memref sig .tc .vmem S1024x1024 .f32) (h3 : a3.IsWhole) (a4 : Memref sig .tc .vmem S8x1024 .f32) (h4 : a4.IsWhole) (a5 : Memref sig .tc .vmem S8x1024 .f32) (h5 : a5.IsWhole) (a6 : Memref sig .tc .vmem S8x1024 .f32) (h6 : a6.IsWhole) (a7 : Memref sig .tc .vmem S8x1024 .f32) (h7 : a7.IsWhole) (a8 : Memref sig .tc .vmem S8x1024 .f32) (h8 : a8.IsWhole) (hc : cond0_0 i) (x0 x1 : Vec F S1024x1024 .f32) :
    out0_A_6 c i a2 h2 a3 h3 a4 h4 a5 h5 a6 h6 a7 h7 a8 h8 hc x0 x1 = k0_pay3 (k0_pay10 x0 x1) k0_pay8 := by
  unfold out0_A_6
  rw [View.read_writes_eq_canon _ _ _ (cover0_A_6 c i a2 h2 a3 h3 a4 h4 a5 h5 a6 h6 a7 h7 a8 h8 hc x0 x1)]
  unfold kernelRun0_A
  dsimp only
  sl_unfold_words
  rw [View.canon_cons_unit_zero (S := S8x1024) hz]
  simp only [View.readCov_unit_zero (S := S8x1024) _ hz, View.readAt_eq_ld, h2.read_unread, h3.read_unread, View.ld_unit_zero (S := S1024x1024) hz, View.ld_unit_zero (S := S8x1024) hz]

end Cert.KernelIdeal.KStats

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.KStatsPay.lean ====
/-
  The statistics pass's payloads read at an entry.

  Each of the five payloads adds to the running [8,1024] buffer, in every one of its eight rows, a column sum of the
  point's [1024,1024] blocks: entry (b, q) gains  Σ_r x0(r,q),  Σ_r x1(r,q),  Σ_r x0(r,q)²,  Σ_r x1(r,q)²  or
  Σ_r x0(r,q)·x1(r,q).  A lane reduction over the rows is, on the extended reals, the plain sum over the row index;
  the [1024] row of sums is viewed as [1,1024] and repeated over the eight rows.
-/
import proofs.«158268_j23862838297129_2_alg».proof.Proof.KStatsPieces
import proofs.«158268_j23862838297129_2_alg».proof.Proof.LibHostIdx
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.KernelIdeal.KStats

open Cert.KernelIdeal Cert.KernelIdeal.Gen

/-- A [1,D] row repeated over A rows, read at (b, q): the row's entry q. -/
theorem bcastRow_apply {α : Type} {A D : Nat} (hD : D ≠ 1) (h : (⟨2, ![1, D]⟩ : Shape).Broadcasts ⟨2, ![A, D]⟩)
    (v : (⟨2, ![1, D]⟩ : Shape).Idx → α) (b : Fin A) (q : Fin D) :
    broadcastTo ⟨2, ![A, D]⟩ v h (ix2 b q) = v (ix2 (0 : Fin 1) q) :=
  broadcastTo_apply v h (ix2 b q) (ix2 (0 : Fin 1) q) (fun a => match a with
    | ⟨0, _⟩ => by show (0 : ℕ) = if (1 : ℕ) = 1 then 0 else _; rw [if_pos rfl]
    | ⟨1, _⟩ => by show q.val = if D = 1 then 0 else q.val; rw [if_neg hD])

/-- The lane reduction of a [1024,1024] block over its rows, at column q, is the sum over the rows. -/
theorem colsum_apply (x : FVec Ideal S1024x1024 .f32) (q : Fin 1024) :
    multiReduction (F := Ideal) .add [0] S1024 x 0x00000000#32 reduces_S1024x1024_S1024 (.inl rfl) rfl (ix1 q)
      = ∑ r : Fin 1024, x (ix2 r q) := by
  refine (Ideal.multiReduction_add_single x 0x00000000#32 reduces_S1024x1024_S1024 (.inl rfl) rfl (ix1 q)).trans ?_
  show ∑ k : Fin 1024, x (reduces_S1024x1024_S1024.lift (ix1 q) k) = ∑ r : Fin 1024, x (ix2 r q)
  refine Finset.sum_congr rfl (fun k _ => congrArg x ?_)
  funext a
  match a with
  | ⟨0, _⟩ => rfl
  | ⟨1, _⟩ => rfl

/-- The row of column sums as a [1,1024] row repeated over the eight rows, at (b, q). -/
theorem rowsum_apply (x : FVec Ideal S1024x1024 .f32) (b : Fin 8) (q : Fin 1024) :
    broadcastTo S8x1024 (shapeCast S1x1024 (shapeCast S1x1024
      (multiReduction (F := Ideal) .add [0] S1024 x 0x00000000#32 reduces_S1024x1024_S1024 (.inl rfl) rfl) shapeCasts_S1024_S1x1024)
      shapeCasts_S1x1024_S1x1024) broadcasts_S1x1024_S8x1024 (ix2 b q) = ∑ r : Fin 1024, x (ix2 r q) := by
  refine (bcastRow_apply (by decide) broadcasts_S1x1024_S8x1024 _ b q).trans ?_
  rw [shapeCast_self]
  refine (Cert.Lib.HostIdx.castRow_apply shapeCasts_S1024_S1x1024 _ q).trans ?_
  exact colsum_apply x q

/-- Σ x0 : entry (b, q) of the buffer gains the column sum of the real block. -/
theorem pay11_apply (x0 : Vec Ideal S1024x1024 .f32) (acc : Vec Ideal S8x1024 .f32) (b : Fin 8) (q : Fin 1024) :
    k0_pay11 x0 acc (ix2 b q) = acc (ix2 b q) + ∑ r : Fin 1024, x0 (ix2 r q) := by
  unfold k0_pay11
  show (shapeCast S8x1024 acc shapeCasts_S8x1024_S8x1024) (ix2 b q) + _ = _
  rw [shapeCast_self]
  exact congrArg (acc (ix2 b q) + ·) (rowsum_apply x0 b q)

/-- Σ x1 : the column sum of the imaginary block. -/
theorem pay12_apply (x1 : Vec Ideal S1024x1024 .f32) (acc : Vec Ideal S8x1024 .f32) (b : Fin 8) (q : Fin 1024) :
    k0_pay12 x1 acc (ix2 b q) = acc (ix2 b q) + ∑ r : Fin 1024, x1 (ix2 r q) := by
  unfold k0_pay12
  show (shapeCast S8x1024 acc shapeCasts_S8x1024_S8x1024) (ix2 b q) + _ = _
  rw [shapeCast_self]
  exact congrArg (acc (ix2 b q) + ·) (rowsum_apply x1 b q)

/-- Σ x0² : the column sum of the squared real block. -/
theorem pay1_apply (x0 : Vec Ideal S1024x1024 .f32) (acc : Vec Ideal S8x1024 .f32) (b : Fin 8) (q : Fin 1024) :
    k0_pay1 (k0_pay13 acc) (k0_pay14 x0) (ix2 b q) = acc (ix2 b q) + ∑ r : Fin 1024, x0 (ix2 r q) * x0 (ix2 r q) := by
  unfold k0_pay1 k0_pay13 k0_pay14
  show (shapeCast S8x1024 acc shapeCasts_S8x1024_S8x1024) (ix2 b q) + _ = _
  rw [shapeCast_self]
  exact congrArg (acc (ix2 b q) + ·) (rowsum_apply (mulf x0 x0) b q)

/-- Σ x1² : the column sum of the squared imaginary block. -/
theorem pay2_apply (x1 : Vec Ideal S1024x1024 .f32) (acc : Vec Ideal S8x1024 .f32) (b : Fin 8) (q : Fin 1024) :
    k0_pay2 (k0_pay9 x1) acc (ix2 b q) = acc (ix2 b q) + ∑ r : Fin 1024, x1 (ix2 r q) * x1 (ix2 r q) := by
  unfold k0_pay2 k0_pay9
  show (shapeCast S8x1024 acc shapeCasts_S8x1024_S8x1024) (ix2 b q) + _ = _
  rw [shapeCast_self]
  refine congrArg (acc (ix2 b q) + ·) ?_
  refine (bcastRow_apply (by decide) broadcasts_S1x1024_S8x1024 _ b q).trans ?_
  rw [shapeCast_self]
  refine (Cert.Lib.HostIdx.castRow_apply shapeCasts_S1024_S1x1024 _ q).trans ?_
  exact colsum_apply (mulf x1 x1) q

/-- Σ x0·x1 : the column sum of the product of the two blocks. -/
theorem pay3_apply (x0 x1 : Vec Ideal S1024x1024 .f32) (acc : Vec Ideal S8x1024 .f32) (b : Fin 8) (q : Fin 1024) :
    k0_pay3 (k0_pay10 x0 x1) acc (ix2 b q) = acc (ix2 b q) + ∑ r : Fin 1024, x0 (ix2 r q) * x1 (ix2 r q) := by
  unfold k0_pay3 k0_pay10
  show (shapeCast S8x1024 acc shapeCasts_S8x1024_S8x1024) (ix2 b q) + _ = _
  rw [shapeCast_self]
  refine congrArg (acc (ix2 b q) + ·) ?_
  refine (bcastRow_apply (by decide) broadcasts_S1x1024_S8x1024 _ b q).trans ?_
  rw [shapeCast_self]
  refine (Cert.Lib.HostIdx.castRow_apply shapeCasts_S1024_S1x1024 _ q).trans ?_
  exact colsum_apply (mulf x0 x1) q

/-- The five reset payloads are the zero block. -/
theorem zero_apply (b : Fin 8) (q : Fin 1024) :
    (k0_pay4 (F := Ideal)) (ix2 b q) = 0 ∧ (k0_pay5 (F := Ideal)) (ix2 b q) = 0 ∧ (k0_pay6 (F := Ideal)) (ix2 b q) = 0
      ∧ (k0_pay7 (F := Ideal)) (ix2 b q) = 0 ∧ (k0_pay8 (F := Ideal)) (ix2 b q) = 0 :=
  ⟨Ideal.ofBits_zero_f32, Ideal.ofBits_zero_f32, Ideal.ofBits_zero_f32, Ideal.ofBits_zero_f32, Ideal.ofBits_zero_f32⟩

end Cert.KernelIdeal.KStats

end
-- ==== Proof.LibSumCores.lean ====
/-
  Regrouping the sum of a column of 65536 samples by cores and blocks.

  The column is cut into 64 blocks of 1024 consecutive samples; one core adds the sums of blocks 0..31, the
  other those of blocks 32..63, and the two totals are added.  The result is the sum of the whole column:

  * K consecutive blocks of B naturals, starting at block o, are the B·K naturals from o·B on:
      Σ_{s < K} Σ_{r < B} f ((o + s)·B + r) = Σ_{d < B·K} f (o·B + d)
    (induction on K: the first B·(K+1) naturals are the first B·K followed by the next B, and
    (o + K)·B + r = o·B + (B·K + r));
  * the first B·K naturals followed by the next B·K are the first B·K + B·K naturals;
  * 1024·32 + 1024·32 = 65536, and a sum over the naturals below 65536 of a function extended by zero is the sum
    over the 65536 indices.

  Everything holds in any additive commutative monoid.
-/
import Mathlib.Algebra.BigOperators.Fin
import Mathlib.Tactic.Ring
import Mathlib.Tactic.NormNum

open Finset

namespace Cert.SumCores

variable {M : Type*} [AddCommMonoid M]

/-- A function on the first 65536 naturals, extended by zero. -/
def ext0 (G : Fin 65536 → M) (n : ℕ) : M := if h : n < 65536 then G ⟨n, h⟩ else 0

/-- Below 65536 the extension is the function itself. -/
theorem ext0_of_lt (G : Fin 65536 → M) (n : ℕ) (h : n < 65536) : ext0 G n = G ⟨n, h⟩ :=
  dif_pos h

/-- K consecutive blocks of B naturals from block o on are the B·K naturals from o·B on:
    Σ_{s < K} Σ_{r < B} f ((o + s)·B + r) = Σ_{d < B·K} f (o·B + d). -/
theorem sum_blocks (f : ℕ → M) (B K o : ℕ) :
    ∑ s ∈ range K, ∑ r : Fin B, f ((o + s) * B + r.val) = ∑ d ∈ range (B * K), f (o * B + d) := by
  induction K with
  | zero => rw [Nat.mul_zero, sum_range_zero, sum_range_zero]
  | succ K ih =>
    rw [sum_range_succ, ih, Nat.mul_succ, sum_range_add (fun d => f (o * B + d)) (B * K) B,
      Fin.sum_univ_eq_sum_range (fun d => f ((o + K) * B + d)) B]
    congr 1
    refine sum_congr rfl fun d _ => ?_
    congr 1
    ring

/-- Two runs of K blocks of B, the first from block 0 and the second from block K, are the first
    B·K + B·K naturals. -/
theorem sum_two_runs (f : ℕ → M) (B K : ℕ) :
    (∑ s ∈ range K, ∑ r : Fin B, f ((0 + s) * B + r.val))
        + (∑ s ∈ range K, ∑ r : Fin B, f ((K + s) * B + r.val))
      = ∑ d ∈ range (B * K + B * K), f d := by
  rw [sum_blocks f B K 0, sum_blocks f B K K, sum_range_add f (B * K) (B * K)]
  congr 1
  · refine sum_congr rfl fun d _ => ?_
    congr 1
    ring
  · refine sum_congr rfl fun d _ => ?_
    congr 1
    ring

/-- The two cores' totals, each the sum of 32 blocks of 1024 samples, add up to the sum of the whole column of
    65536 = 1024·32 + 1024·32 samples. -/
theorem sum_two_cores (G : Fin 65536 → M) :
    (∑ s ∈ Finset.range 32, ∑ r : Fin 1024, ext0 G ((0 + s) * 1024 + r.val))
      + (∑ s ∈ Finset.range 32, ∑ r : Fin 1024, ext0 G ((32 + s) * 1024 + r.val)) = ∑ n : Fin 65536, G n := by
  have e : 1024 * 32 + 1024 * 32 = 65536 := by norm_num
  rw [sum_two_runs (ext0 G) 1024 32, e, Finset.sum_range (ext0 G)]
  exact Fintype.sum_congr _ _ fun k => ext0_of_lt G k.val k.isLt

end Cert.SumCores
-- ==== Proof.KStatsAcc.lean ====
/-
  The statistics pass over its grid: what the five [16,1024] partial-sum arrays hold afterwards.

  The grid is 2 cores × 32 blocks; point t = 32·c + n loads block t (rows [1024t, 1024t + 1024)) of the two inputs.
  Core c's output block (rows [8c, 8c + 8) of each array) is reset at n = 0 and accumulated at n = 1 … 31, and is
  written back after n = 31.  By induction on the point, the buffer after point t holds in every row, at column q,
  the sum over the blocks 32·(t / 32) … t of the block's column sum (of r, i, r², i², r·i respectively).  Hence after
  the pass row b of each array holds the total over the 32 blocks of core b / 8.
-/
import proofs.«158268_j23862838297129_2_alg».proof.Proof.KStatsPay
import proofs.«158268_j23862838297129_2_alg».proof.Proof.LibSumCores
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KStats

open Cert.KernelIdeal Cert.KernelIdeal.Gen Cert.SumCores

variable (V : (c : Dev nD) → (b : Ref sig .tc) → Buf (Elt Ideal) ((c : Thread nD τ).loc b)) (c : Dev nD)

/-- Column q of the real input, as the region finds it. -/
abbrev colR (q : Fin 1024) : Fin 65536 → EReal := fun k => (V c main_arg0 : S65536x1024.Idx → EReal) (ix2 k q)
/-- Column q of the imaginary input. -/
abbrev colI (q : Fin 1024) : Fin 65536 → EReal := fun k => (V c main_arg1 : S65536x1024.Idx → EReal) (ix2 k q)

/-- Block n's column sums: of r, i, r², i², r·i (rows n·1024 … n·1024 + 1023 of column q). -/
def addR (n : ℕ) (q : Fin 1024) : EReal := ∑ r : Fin 1024, ext0 (colR V c q) (n * 1024 + r.val)
def addI (n : ℕ) (q : Fin 1024) : EReal := ∑ r : Fin 1024, ext0 (colI V c q) (n * 1024 + r.val)
def addRR (n : ℕ) (q : Fin 1024) : EReal := ∑ r : Fin 1024, ext0 (fun k => colR V c q k * colR V c q k) (n * 1024 + r.val)
def addII (n : ℕ) (q : Fin 1024) : EReal := ∑ r : Fin 1024, ext0 (fun k => colI V c q k * colI V c q k) (n * 1024 + r.val)
def addRI (n : ℕ) (q : Fin 1024) : EReal := ∑ r : Fin 1024, ext0 (fun k => colR V c q k * colI V c q k) (n * 1024 + r.val)

/-- The running total at point n: the addends of the points from the start of n's run of 32 up to n. -/
def run (g : ℕ → Fin 1024 → EReal) (n : ℕ) (q : Fin 1024) : EReal :=
  ∑ s ∈ Finset.range (n % 32 + 1), g (32 * (n / 32) + s) q

theorem run_reset (g : ℕ → Fin 1024 → EReal) (n : ℕ) (h0 : n % 32 = 0) (q : Fin 1024) : g n q = run g n q := by
  unfold run
  rw [h0, Finset.sum_range_one, show 32 * (n / 32) + 0 = n by omega]

theorem run_step (g : ℕ → Fin 1024 → EReal) (n : ℕ) (h0 : ¬n % 32 = 0) (q : Fin 1024) :
    run g (n - 1) q + g n q = run g n q := by
  unfold run
  rw [show n % 32 + 1 = ((n - 1) % 32 + 1) + 1 by omega, show n / 32 = (n - 1) / 32 by omega,
    Finset.sum_range_succ (fun s => g (32 * ((n - 1) / 32) + s) q) ((n - 1) % 32 + 1),
    show 32 * ((n - 1) / 32) + ((n - 1) % 32 + 1) = n by omega]

/-- At the last point of a run the running total is the whole run's, whichever of the core's eight rows is read. -/
theorem run_last (g : ℕ → Fin 1024 → EReal) (n : ℕ) (hf : n % 32 = 31) (q : Fin 1024) (i : S16x1024.Idx)
    (h0 : (i 0).val / 8 = n / 32) (h1 : (⟨(i 1).val, idx2_lt1 i⟩ : Fin 1024) = q) :
    run g n q = ∑ s ∈ Finset.range 32, g (32 * ((i 0).val / 8) + s) ⟨(i 1).val, idx2_lt1 i⟩ := by
  unfold run
  rw [hf, h0, h1]

/-- The totals as a [16,1024] array: row b holds the 32-block total of core b / 8. -/
def rowsOf (g : ℕ → Fin 1024 → EReal) : S16x1024.Idx → EReal :=
  fun i => ∑ s ∈ Finset.range 32, g (32 * ((i 0).val / 8) + s) ⟨(i 1).val, idx2_lt1 i⟩

/-- Point t's real block, a [1024,1024] array of extended reals. -/
abbrev blkR (t : Fin cfg0.N) : Vec Ideal S1024x1024 .f32 := iblk0 V c 0 t
/-- Point t's imaginary block. -/
abbrev blkI (t : Fin cfg0.N) : Vec Ideal S1024x1024 .f32 := iblk0 V c 1 t

/-- The printed index maps over the grid: an input block is block t of its array; an output block is block t / 32. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = t.val / 32 ∧ win0_4.index t (1 : Fin 2) = 0
    ∧ win0_5.index t (0 : Fin 2) = t.val / 32 ∧ win0_5.index t (1 : Fin 2) = 0
    ∧ win0_6.index t (0 : Fin 2) = t.val / 32 ∧ win0_6.index t (1 : Fin 2) = 0 :=
  (by decide +kernel : ∀ t : Fin grid0.N, _)

/-- Entry (r, q) of point t's real block is entry (1024·t + r, q) of the array. -/
theorem blk0_apply (t : Fin cfg0.N) (r q : Fin 1024) :
    blkR V c t (ix2 r q) = colR V c q ⟨t.val * 1024 + r.val, by
      have hN : cfg0.N = 64 := N_0
      have := t.isLt; have := r.isLt; omega⟩ := by
  unfold blkR iblk0
  rw [View.read_apply]
  show (V c main_arg0 : S65536x1024.Idx → EReal) (((cfg0.win 0).blk t).view.emb (ix2 r q)) = (V c main_arg0 : S65536x1024.Idx → EReal) (ix2 _ q)
  refine congrArg _ (funext fun a => Fin.ext ?_)
  obtain ⟨e0, e1, -⟩ := idx_facts0 t
  match a with
  | ⟨0, _⟩ => show win0_0.index t 0 * 1024 + 1 * r.val = t.val * 1024 + r.val; rw [e0]; omega
  | ⟨1, _⟩ => show win0_0.index t 1 * 1024 + 1 * q.val = q.val; rw [e1]; omega

/-- Entry (r, q) of point t's imaginary block is entry (1024·t + r, q) of the array. -/
theorem blk1_apply (t : Fin cfg0.N) (r q : Fin 1024) :
    blkI V c t (ix2 r q) = colI V c q ⟨t.val * 1024 + r.val, by
      have hN : cfg0.N = 64 := N_0
      have := t.isLt; have := r.isLt; omega⟩ := by
  unfold blkI iblk0
  rw [View.read_apply]
  show (V c main_arg1 : S65536x1024.Idx → EReal) (((cfg0.win 1).blk t).view.emb (ix2 r q)) = (V c main_arg1 : S65536x1024.Idx → EReal) (ix2 _ q)
  refine congrArg _ (funext fun a => Fin.ext ?_)
  obtain ⟨-, -, e0, e1, -⟩ := idx_facts0 t
  match a with
  | ⟨0, _⟩ => show win0_1.index t 0 * 1024 + 1 * r.val = t.val * 1024 + r.val; rw [e0]; omega
  | ⟨1, _⟩ => show win0_1.index t 1 * 1024 + 1 * q.val = q.val; rw [e1]; omega

theorem blk_lt (t : Fin cfg0.N) (r : Fin 1024) : t.val * 1024 + r.val < 65536 := by
  have hN : cfg0.N = 64 := N_0
  have := t.isLt; have := r.isLt; omega

theorem blk_sumR (t : Fin cfg0.N) (q : Fin 1024) :
    ∑ r : Fin 1024, blkR V c t (ix2 r q) = addR V c t.val q :=
  Finset.sum_congr rfl fun r _ => by rw [blk0_apply, ext0_of_lt _ _ (blk_lt t r)]
theorem blk_sumI (t : Fin cfg0.N) (q : Fin 1024) :
    ∑ r : Fin 1024, blkI V c t (ix2 r q) = addI V c t.val q :=
  Finset.sum_congr rfl fun r _ => by rw [blk1_apply, ext0_of_lt _ _ (blk_lt t r)]
theorem blk_sumRR (t : Fin cfg0.N) (q : Fin 1024) :
    ∑ r : Fin 1024, blkR V c t (ix2 r q) * blkR V c t (ix2 r q) = addRR V c t.val q :=
  Finset.sum_congr rfl fun r _ => by rw [blk0_apply, ext0_of_lt _ _ (blk_lt t r)]
theorem blk_sumII (t : Fin cfg0.N) (q : Fin 1024) :
    ∑ r : Fin 1024, blkI V c t (ix2 r q) * blkI V c t (ix2 r q) = addII V c t.val q :=
  Finset.sum_congr rfl fun r _ => by rw [blk1_apply, ext0_of_lt _ _ (blk_lt t r)]
theorem blk_sumRI (t : Fin cfg0.N) (q : Fin 1024) :
    ∑ r : Fin 1024, blkR V c t (ix2 r q) * blkI V c t (ix2 r q) = addRI V c t.val q :=
  Finset.sum_congr rfl fun r _ => by rw [blk0_apply, blk1_apply, ext0_of_lt _ _ (blk_lt t r)]

/-! ## The buffers after each point -/

/-- At an accumulating point the five buffers are their payloads of the point's blocks and of what the point before left. -/
theorem tupB (t : Fin cfg0.N) (h0 : ¬t.val % 32 = 0) :
    outsAt0 V c t.val t.isLt = (k0_pay11 (F := Ideal) (blkR V c t) (outsAt0 V c (t.val - 1) (Nat.lt_of_le_of_lt (Nat.sub_le _ _) t.isLt)).1, k0_pay12 (F := Ideal) (blkI V c t) (outsAt0 V c (t.val - 1) (Nat.lt_of_le_of_lt (Nat.sub_le _ _) t.isLt)).2.1,
      k0_pay1 (F := Ideal) (k0_pay13 (F := Ideal) (outsAt0 V c (t.val - 1) (Nat.lt_of_le_of_lt (Nat.sub_le _ _) t.isLt)).2.2.1) (k0_pay14 (F := Ideal) (blkR V c t)),
      k0_pay2 (F := Ideal) (k0_pay9 (F := Ideal) (blkI V c t)) (outsAt0 V c (t.val - 1) (Nat.lt_of_le_of_lt (Nat.sub_le _ _) t.isLt)).2.2.2.1,
      k0_pay3 (F := Ideal) (k0_pay10 (F := Ideal) (blkR V c t) (blkI V c t)) (outsAt0 V c (t.val - 1) (Nat.lt_of_le_of_lt (Nat.sub_le _ _) t.isLt)).2.2.2.2) := by
  have e := outsAt0_B V c t h0
  rw [outB2 (F := Ideal), outB3 (F := Ideal), outB4 (F := Ideal), outB5 (F := Ideal), outB6 (F := Ideal)] at e
  exact e

/-- At a resetting point the five buffers are their payloads of the point's blocks and of the zero block. -/
theorem tupA (t : Fin cfg0.N) (h0 : t.val % 32 = 0) :
    outsAt0 V c t.val t.isLt = (k0_pay11 (F := Ideal) (blkR V c t) (k0_pay4 (F := Ideal)), k0_pay12 (F := Ideal) (blkI V c t) (k0_pay5 (F := Ideal)),
      k0_pay1 (F := Ideal) (k0_pay13 (F := Ideal) (k0_pay6 (F := Ideal))) (k0_pay14 (F := Ideal) (blkR V c t)),
      k0_pay2 (F := Ideal) (k0_pay9 (F := Ideal) (blkI V c t)) (k0_pay7 (F := Ideal)),
      k0_pay3 (F := Ideal) (k0_pay10 (F := Ideal) (blkR V c t) (blkI V c t)) (k0_pay8 (F := Ideal))) := by
  have e := outsAt0_A V c t h0
  rw [outA2 (F := Ideal), outA3 (F := Ideal), outA4 (F := Ideal), outA5 (F := Ideal), outA6 (F := Ideal)] at e
  exact e

theorem compB2 (t : Fin cfg0.N) (h0 : ¬t.val % 32 = 0) :
    (outsAt0 V c t.val t.isLt).1 = k0_pay11 (F := Ideal) (blkR V c t) (outsAt0 V c (t.val - 1) (Nat.lt_of_le_of_lt (Nat.sub_le _ _) t.isLt)).1 :=
  congrArg (fun z => z.1) (tupB V c t h0)
theorem compA2 (t : Fin cfg0.N) (h0 : t.val % 32 = 0) :
    (outsAt0 V c t.val t.isLt).1 = k0_pay11 (F := Ideal) (blkR V c t) (k0_pay4 (F := Ideal)) :=
  congrArg (fun z => z.1) (tupA V c t h0)

theorem compB3 (t : Fin cfg0.N) (h0 : ¬t.val % 32 = 0) :
    (outsAt0 V c t.val t.isLt).2.1 = k0_pay12 (F := Ideal) (blkI V c t) (outsAt0 V c (t.val - 1) (Nat.lt_of_le_of_lt (Nat.sub_le _ _) t.isLt)).2.1 :=
  congrArg (fun z => z.2.1) (tupB V c t h0)
theorem compA3 (t : Fin cfg0.N) (h0 : t.val % 32 = 0) :
    (outsAt0 V c t.val t.isLt).2.1 = k0_pay12 (F := Ideal) (blkI V c t) (k0_pay5 (F := Ideal)) :=
  congrArg (fun z => z.2.1) (tupA V c t h0)

theorem compB4 (t : Fin cfg0.N) (h0 : ¬t.val % 32 = 0) :
    (outsAt0 V c t.val t.isLt).2.2.1 = k0_pay1 (F := Ideal) (k0_pay13 (F := Ideal) (outsAt0 V c (t.val - 1) (Nat.lt_of_le_of_lt (Nat.sub_le _ _) t.isLt)).2.2.1) (k0_pay14 (F := Ideal) (blkR V c t)) :=
  congrArg (fun z => z.2.2.1) (tupB V c t h0)
theorem compA4 (t : Fin cfg0.N) (h0 : t.val % 32 = 0) :
    (outsAt0 V c t.val t.isLt).2.2.1 = k0_pay1 (F := Ideal) (k0_pay13 (F := Ideal) (k0_pay6 (F := Ideal))) (k0_pay14 (F := Ideal) (blkR V c t)) :=
  congrArg (fun z => z.2.2.1) (tupA V c t h0)

theorem compB5 (t : Fin cfg0.N) (h0 : ¬t.val % 32 = 0) :
    (outsAt0 V c t.val t.isLt).2.2.2.1 = k0_pay2 (F := Ideal) (k0_pay9 (F := Ideal) (blkI V c t)) (outsAt0 V c (t.val - 1) (Nat.lt_of_le_of_lt (Nat.sub_le _ _) t.isLt)).2.2.2.1 :=
  congrArg (fun z => z.2.2.2.1) (tupB V c t h0)
theorem compA5 (t : Fin cfg0.N) (h0 : t.val % 32 = 0) :
    (outsAt0 V c t.val t.isLt).2.2.2.1 = k0_pay2 (F := Ideal) (k0_pay9 (F := Ideal) (blkI V c t)) (k0_pay7 (F := Ideal)) :=
  congrArg (fun z => z.2.2.2.1) (tupA V c t h0)

theorem compB6 (t : Fin cfg0.N) (h0 : ¬t.val % 32 = 0) :
    (outsAt0 V c t.val t.isLt).2.2.2.2 = k0_pay3 (F := Ideal) (k0_pay10 (F := Ideal) (blkR V c t) (blkI V c t)) (outsAt0 V c (t.val - 1) (Nat.lt_of_le_of_lt (Nat.sub_le _ _) t.isLt)).2.2.2.2 :=
  congrArg (fun z => z.2.2.2.2) (tupB V c t h0)
theorem compA6 (t : Fin cfg0.N) (h0 : t.val % 32 = 0) :
    (outsAt0 V c t.val t.isLt).2.2.2.2 = k0_pay3 (F := Ideal) (k0_pay10 (F := Ideal) (blkR V c t) (blkI V c t)) (k0_pay8 (F := Ideal)) :=
  congrArg (fun z => z.2.2.2.2) (tupA V c t h0)

/-- A resetting point starts the five running totals at its own block's column sums. -/
theorem reset_case (t : Fin cfg0.N) (h0 : t.val % 32 = 0) (b : Fin 8) (q : Fin 1024) :
    (outsAt0 V c t.val t.isLt).1 (ix2 b q) = run (addR V c) t.val q
      ∧ (outsAt0 V c t.val t.isLt).2.1 (ix2 b q) = run (addI V c) t.val q
      ∧ (outsAt0 V c t.val t.isLt).2.2.1 (ix2 b q) = run (addRR V c) t.val q
      ∧ (outsAt0 V c t.val t.isLt).2.2.2.1 (ix2 b q) = run (addII V c) t.val q
      ∧ (outsAt0 V c t.val t.isLt).2.2.2.2 (ix2 b q) = run (addRI V c) t.val q := by
  refine ⟨?_, ?_, ?_, ?_, ?_⟩
  · rw [compA2 V c t h0]
    refine (pay11_apply (blkR V c t) _ b q).trans ?_
    rw [(zero_apply b q).1, zero_add, blk_sumR V c t q]
    exact run_reset (addR V c) t.val h0 q
  · rw [compA3 V c t h0]
    refine (pay12_apply (blkI V c t) _ b q).trans ?_
    rw [(zero_apply b q).2.1, zero_add, blk_sumI V c t q]
    exact run_reset (addI V c) t.val h0 q
  · rw [compA4 V c t h0]
    refine (pay1_apply (blkR V c t) _ b q).trans ?_
    rw [(zero_apply b q).2.2.1, zero_add, blk_sumRR V c t q]
    exact run_reset (addRR V c) t.val h0 q
  · rw [compA5 V c t h0]
    refine (pay2_apply (blkI V c t) _ b q).trans ?_
    rw [(zero_apply b q).2.2.2.1, zero_add, blk_sumII V c t q]
    exact run_reset (addII V c) t.val h0 q
  · rw [compA6 V c t h0]
    refine (pay3_apply (blkR V c t) (blkI V c t) _ b q).trans ?_
    rw [(zero_apply b q).2.2.2.2, zero_add, blk_sumRI V c t q]
    exact run_reset (addRI V c) t.val h0 q

/-- An accumulating point adds its own block's column sums to the five running totals. -/
theorem step_case (t : Fin cfg0.N) (h0 : ¬t.val % 32 = 0)
    (ih : ∀ (b : Fin 8) (q : Fin 1024), (outsAt0 V c (t.val - 1) (Nat.lt_of_le_of_lt (Nat.sub_le _ _) t.isLt)).1 (ix2 b q) = run (addR V c) (t.val - 1) q
      ∧ (outsAt0 V c (t.val - 1) (Nat.lt_of_le_of_lt (Nat.sub_le _ _) t.isLt)).2.1 (ix2 b q) = run (addI V c) (t.val - 1) q
      ∧ (outsAt0 V c (t.val - 1) (Nat.lt_of_le_of_lt (Nat.sub_le _ _) t.isLt)).2.2.1 (ix2 b q) = run (addRR V c) (t.val - 1) q
      ∧ (outsAt0 V c (t.val - 1) (Nat.lt_of_le_of_lt (Nat.sub_le _ _) t.isLt)).2.2.2.1 (ix2 b q) = run (addII V c) (t.val - 1) q
      ∧ (outsAt0 V c (t.val - 1) (Nat.lt_of_le_of_lt (Nat.sub_le _ _) t.isLt)).2.2.2.2 (ix2 b q) = run (addRI V c) (t.val - 1) q)
    (b : Fin 8) (q : Fin 1024) :
    (outsAt0 V c t.val t.isLt).1 (ix2 b q) = run (addR V c) t.val q
      ∧ (outsAt0 V c t.val t.isLt).2.1 (ix2 b q) = run (addI V c) t.val q
      ∧ (outsAt0 V c t.val t.isLt).2.2.1 (ix2 b q) = run (addRR V c) t.val q
      ∧ (outsAt0 V c t.val t.isLt).2.2.2.1 (ix2 b q) = run (addII V c) t.val q
      ∧ (outsAt0 V c t.val t.isLt).2.2.2.2 (ix2 b q) = run (addRI V c) t.val q := by
  refine ⟨?_, ?_, ?_, ?_, ?_⟩
  · rw [compB2 V c t h0]
    refine (pay11_apply (blkR V c t) _ b q).trans ?_
    rw [(ih b q).1, blk_sumR V c t q]
    exact run_step (addR V c) t.val h0 q
  · rw [compB3 V c t h0]
    refine (pay12_apply (blkI V c t) _ b q).trans ?_
    rw [(ih b q).2.1, blk_sumI V c t q]
    exact run_step (addI V c) t.val h0 q
  · rw [compB4 V c t h0]
    refine (pay1_apply (blkR V c t) _ b q).trans ?_
    rw [(ih b q).2.2.1, blk_sumRR V c t q]
    exact run_step (addRR V c) t.val h0 q
  · rw [compB5 V c t h0]
    refine (pay2_apply (blkI V c t) _ b q).trans ?_
    rw [(ih b q).2.2.2.1, blk_sumII V c t q]
    exact run_step (addII V c) t.val h0 q
  · rw [compB6 V c t h0]
    refine (pay3_apply (blkR V c t) (blkI V c t) _ b q).trans ?_
    rw [(ih b q).2.2.2.2, blk_sumRI V c t q]
    exact run_step (addRI V c) t.val h0 q

/-- After every point, every row of the five buffers holds the running totals of the point's run. -/
theorem inv : ∀ (n : ℕ) (h : n < cfg0.N) (b : Fin 8) (q : Fin 1024),
    (outsAt0 V c n h).1 (ix2 b q) = run (addR V c) n q
      ∧ (outsAt0 V c n h).2.1 (ix2 b q) = run (addI V c) n q
      ∧ (outsAt0 V c n h).2.2.1 (ix2 b q) = run (addRR V c) n q
      ∧ (outsAt0 V c n h).2.2.2.1 (ix2 b q) = run (addII V c) n q
      ∧ (outsAt0 V c n h).2.2.2.2 (ix2 b q) = run (addRI V c) n q
  | 0, h, b, q => reset_case V c ⟨0, h⟩ rfl b q
  | n + 1, h, b, q => by
    by_cases h0 : (n + 1) % 32 = 0
    · exact reset_case V c ⟨n + 1, h⟩ h0 b q
    · exact step_case V c ⟨n + 1, h⟩ h0 (fun b q => inv n (Nat.lt_of_succ_lt h) b q) b q

/-! ## The arrays after the pass -/

/-! ### Output window 2 (array `main_v0_0`) -/

theorem mem_blk2 (t : Fin cfg0.N) (i : S16x1024.Idx) :
    i ∈ ((cfg0.win 2).blk t).view.set ↔ ∀ a : Fin 2, win0_2.index t a * S8x1024.size a ≤ (i a).val ∧ (i a).val < win0_2.index t a * S8x1024.size a + S8x1024.size a := by
  show i ∈ ((View.whole main_v0_0).slice (win0_2.rect t)).set ↔ _
  rw [View.set_slice_whole, Rect.mem_set_unit]
  exact Iff.rfl

/-- What the last point of a core's run writes back is that core's eight rows of the totals. -/
theorem flushed2_eq (t : Fin cfg0.N) (hf : t.val % 32 = 31) :
    (dat0 V c).flushed 2 t = ((cfg0.win 2).blk t).view.read (Elt Ideal) (rowsOf (addR V c)) := by
  show (cfg0.win 2).cut (grid0.coords t) ((dat0 V c).after 2 t) = _
  rw [after0_2]
  funext y
  obtain ⟨b, q, rfl⟩ : ∃ (b : Fin 8) (q : Fin 1024), y = ix2 b q := ⟨y 0, y 1, eq_ix2 y⟩
  rw [View.read_apply]
  show (outsAt0 V c t.val t.isLt).1 (ix2 b q) = rowsOf (addR V c) (((cfg0.win 2).blk t).view.emb (ix2 b q))
  rw [(inv V c t.val t.isLt b q).1]
  obtain ⟨-, -, -, -, f2a, f2b, f3a, f3b, f4a, f4b, f5a, f5b, f6a, f6b⟩ := idx_facts0 t
  have e0 : ((((cfg0.win 2).blk t).view.emb (ix2 b q)) 0).val = t.val / 32 * 8 + b.val := by
    show win0_2.index t 0 * 8 + 1 * b.val = _
    rw [f2a]; omega
  have e1 : ((((cfg0.win 2).blk t).view.emb (ix2 b q)) 1).val = q.val := by
    show win0_2.index t 1 * 1024 + 1 * q.val = _
    rw [f2b]; omega
  exact run_last _ t.val hf q _ (by rw [e0]; have := b.isLt; omega) (Fin.ext e1)

/-- Every entry of the [16,1024] array lies in the block the last point of its core's run writes back. -/
theorem cover2 (i : S16x1024.Idx) :
    ∃ t : Fin cfg0.N, (cfg0.win 2).flush t = true ∧ i ∈ ((cfg0.win 2).blk t).view.set := by
  have hN : cfg0.N = 64 := N_0
  have hi0 : (i 0).val < 16 := idx2_lt0 i
  have hi1 : (i 1).val < 1024 := idx2_lt1 i
  refine ⟨⟨32 * ((i 0).val / 8) + 31, by rw [hN]; omega⟩, (flush0_2 _).mpr (by show (32 * ((i 0).val / 8) + 31) % 32 = 31; omega), ?_⟩
  rw [mem_blk2]
  obtain ⟨-, -, -, -, f2a, f2b, f3a, f3b, f4a, f4b, f5a, f5b, f6a, f6b⟩ := idx_facts0 (⟨32 * ((i 0).val / 8) + 31, by rw [hN]; omega⟩ : Fin cfg0.N)
  intro a
  match a with
  | ⟨0, _⟩ =>
    show win0_2.index _ 0 * 8 ≤ (i 0).val ∧ (i 0).val < win0_2.index _ 0 * 8 + 8
    rw [f2a]
    show (32 * ((i 0).val / 8) + 31) / 32 * 8 ≤ (i 0).val ∧ (i 0).val < (32 * ((i 0).val / 8) + 31) / 32 * 8 + 8
    omega
  | ⟨1, _⟩ =>
    show win0_2.index _ 1 * 1024 ≤ (i 1).val ∧ (i 1).val < win0_2.index _ 1 * 1024 + 1024
    rw [f2b]
    omega

/-- After the statistics pass, row b of `main_v0_0` holds, in column q, the total over the 32 blocks of core b / 8. -/
theorem stats2 (b : Fin 16) (q : Fin 1024) :
    (dat0 V c).arrAt 2 cfg0.N (ix2 b q) = ∑ s ∈ Finset.range 32, addR V c (32 * (b.val / 8) + s) q := by
  rw [(dat0 V c).arrAt_eq_of_cover 2 (rowsOf (addR V c)) (fun t hf => flushed2_eq V c t ((flush0_2 t).mp hf)) cover2]
  rfl

/-! ### Output window 3 (array `main_v0_1`) -/

theorem mem_blk3 (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v0_1).slice (win0_3.rect t)).set ↔ _
  rw [View.set_slice_whole, Rect.mem_set_unit]
  exact Iff.rfl

/-- What the last point of a core's run writes back is that core's eight rows of the totals. -/
theorem flushed3_eq (t : Fin cfg0.N) (hf : t.val % 32 = 31) :
    (dat0 V c).flushed 3 t = ((cfg0.win 3).blk t).view.read (Elt Ideal) (rowsOf (addI V c)) := by
  show (cfg0.win 3).cut (grid0.coords t) ((dat0 V c).after 3 t) = _
  rw [after0_3]
  funext y
  obtain ⟨b, q, rfl⟩ : ∃ (b : Fin 8) (q : Fin 1024), y = ix2 b q := ⟨y 0, y 1, eq_ix2 y⟩
  rw [View.read_apply]
  show (outsAt0 V c t.val t.isLt).2.1 (ix2 b q) = rowsOf (addI V c) (((cfg0.win 3).blk t).view.emb (ix2 b q))
  rw [(inv V c t.val t.isLt b q).2.1]
  obtain ⟨-, -, -, -, f2a, f2b, f3a, f3b, f4a, f4b, f5a, f5b, f6a, f6b⟩ := idx_facts0 t
  have e0 : ((((cfg0.win 3).blk t).view.emb (ix2 b q)) 0).val = t.val / 32 * 8 + b.val := by
    show win0_3.index t 0 * 8 + 1 * b.val = _
    rw [f3a]; omega
  have e1 : ((((cfg0.win 3).blk t).view.emb (ix2 b q)) 1).val = q.val := by
    show win0_3.index t 1 * 1024 + 1 * q.val = _
    rw [f3b]; omega
  exact run_last _ t.val hf q _ (by rw [e0]; have := b.isLt; omega) (Fin.ext e1)

/-- Every entry of the [16,1024] array lies in the block the last point of its core's run writes back. -/
theorem cover3 (i : S16x1024.Idx) :
    ∃ t : Fin cfg0.N, (cfg0.win 3).flush t = true ∧ i ∈ ((cfg0.win 3).blk t).view.set := by
  have hN : cfg0.N = 64 := N_0
  have hi0 : (i 0).val < 16 := idx2_lt0 i
  have hi1 : (i 1).val < 1024 := idx2_lt1 i
  refine ⟨⟨32 * ((i 0).val / 8) + 31, by rw [hN]; omega⟩, (flush0_3 _).mpr (by show (32 * ((i 0).val / 8) + 31) % 32 = 31; omega), ?_⟩
  rw [mem_blk3]
  obtain ⟨-, -, -, -, f2a, f2b, f3a, f3b, f4a, f4b, f5a, f5b, f6a, f6b⟩ := idx_facts0 (⟨32 * ((i 0).val / 8) + 31, by rw [hN]; omega⟩ : Fin cfg0.N)
  intro a
  match a with
  | ⟨0, _⟩ =>
    show win0_3.index _ 0 * 8 ≤ (i 0).val ∧ (i 0).val < win0_3.index _ 0 * 8 + 8
    rw [f3a]
    show (32 * ((i 0).val / 8) + 31) / 32 * 8 ≤ (i 0).val ∧ (i 0).val < (32 * ((i 0).val / 8) + 31) / 32 * 8 + 8
    omega
  | ⟨1, _⟩ =>
    show win0_3.index _ 1 * 1024 ≤ (i 1).val ∧ (i 1).val < win0_3.index _ 1 * 1024 + 1024
    rw [f3b]
    omega

/-- After the statistics pass, row b of `main_v0_1` holds, in column q, the total over the 32 blocks of core b / 8. -/
theorem stats3 (b : Fin 16) (q : Fin 1024) :
    (dat0 V c).arrAt 3 cfg0.N (ix2 b q) = ∑ s ∈ Finset.range 32, addI V c (32 * (b.val / 8) + s) q := by
  rw [(dat0 V c).arrAt_eq_of_cover 3 (rowsOf (addI V c)) (fun t hf => flushed3_eq V c t ((flush0_3 t).mp hf)) cover3]
  rfl

/-! ### Output window 4 (array `main_v0_2`) -/

theorem mem_blk4 (t : Fin cfg0.N) (i : S16x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v0_2).slice (win0_4.rect t)).set ↔ _
  rw [View.set_slice_whole, Rect.mem_set_unit]
  exact Iff.rfl

/-- What the last point of a core's run writes back is that core's eight rows of the totals. -/
theorem flushed4_eq (t : Fin cfg0.N) (hf : t.val % 32 = 31) :
    (dat0 V c).flushed 4 t = ((cfg0.win 4).blk t).view.read (Elt Ideal) (rowsOf (addRR V c)) := by
  show (cfg0.win 4).cut (grid0.coords t) ((dat0 V c).after 4 t) = _
  rw [after0_4]
  funext y
  obtain ⟨b, q, rfl⟩ : ∃ (b : Fin 8) (q : Fin 1024), y = ix2 b q := ⟨y 0, y 1, eq_ix2 y⟩
  rw [View.read_apply]
  show (outsAt0 V c t.val t.isLt).2.2.1 (ix2 b q) = rowsOf (addRR V c) (((cfg0.win 4).blk t).view.emb (ix2 b q))
  rw [(inv V c t.val t.isLt b q).2.2.1]
  obtain ⟨-, -, -, -, f2a, f2b, f3a, f3b, f4a, f4b, f5a, f5b, f6a, f6b⟩ := idx_facts0 t
  have e0 : ((((cfg0.win 4).blk t).view.emb (ix2 b q)) 0).val = t.val / 32 * 8 + b.val := by
    show win0_4.index t 0 * 8 + 1 * b.val = _
    rw [f4a]; omega
  have e1 : ((((cfg0.win 4).blk t).view.emb (ix2 b q)) 1).val = q.val := by
    show win0_4.index t 1 * 1024 + 1 * q.val = _
    rw [f4b]; omega
  exact run_last _ t.val hf q _ (by rw [e0]; have := b.isLt; omega) (Fin.ext e1)

/-- Every entry of the [16,1024] array lies in the block the last point of its core's run writes back. -/
theorem cover4 (i : S16x1024.Idx) :
    ∃ t : Fin cfg0.N, (cfg0.win 4).flush t = true ∧ i ∈ ((cfg0.win 4).blk t).view.set := by
  have hN : cfg0.N = 64 := N_0
  have hi0 : (i 0).val < 16 := idx2_lt0 i
  have hi1 : (i 1).val < 1024 := idx2_lt1 i
  refine ⟨⟨32 * ((i 0).val / 8) + 31, by rw [hN]; omega⟩, (flush0_4 _).mpr (by show (32 * ((i 0).val / 8) + 31) % 32 = 31; omega), ?_⟩
  rw [mem_blk4]
  obtain ⟨-, -, -, -, f2a, f2b, f3a, f3b, f4a, f4b, f5a, f5b, f6a, f6b⟩ := idx_facts0 (⟨32 * ((i 0).val / 8) + 31, by rw [hN]; omega⟩ : Fin cfg0.N)
  intro a
  match a with
  | ⟨0, _⟩ =>
    show win0_4.index _ 0 * 8 ≤ (i 0).val ∧ (i 0).val < win0_4.index _ 0 * 8 + 8
    rw [f4a]
    show (32 * ((i 0).val / 8) + 31) / 32 * 8 ≤ (i 0).val ∧ (i 0).val < (32 * ((i 0).val / 8) + 31) / 32 * 8 + 8
    omega
  | ⟨1, _⟩ =>
    show win0_4.index _ 1 * 1024 ≤ (i 1).val ∧ (i 1).val < win0_4.index _ 1 * 1024 + 1024
    rw [f4b]
    omega

/-- After the statistics pass, row b of `main_v0_2` holds, in column q, the total over the 32 blocks of core b / 8. -/
theorem stats4 (b : Fin 16) (q : Fin 1024) :
    (dat0 V c).arrAt 4 cfg0.N (ix2 b q) = ∑ s ∈ Finset.range 32, addRR V c (32 * (b.val / 8) + s) q := by
  rw [(dat0 V c).arrAt_eq_of_cover 4 (rowsOf (addRR V c)) (fun t hf => flushed4_eq V c t ((flush0_4 t).mp hf)) cover4]
  rfl

/-! ### Output window 5 (array `main_v0_3`) -/

theorem mem_blk5 (t : Fin cfg0.N) (i : S16x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v0_3).slice (win0_5.rect t)).set ↔ _
  rw [View.set_slice_whole, Rect.mem_set_unit]
  exact Iff.rfl

/-- What the last point of a core's run writes back is that core's eight rows of the totals. -/
theorem flushed5_eq (t : Fin cfg0.N) (hf : t.val % 32 = 31) :
    (dat0 V c).flushed 5 t = ((cfg0.win 5).blk t).view.read (Elt Ideal) (rowsOf (addII V c)) := by
  show (cfg0.win 5).cut (grid0.coords t) ((dat0 V c).after 5 t) = _
  rw [after0_5]
  funext y
  obtain ⟨b, q, rfl⟩ : ∃ (b : Fin 8) (q : Fin 1024), y = ix2 b q := ⟨y 0, y 1, eq_ix2 y⟩
  rw [View.read_apply]
  show (outsAt0 V c t.val t.isLt).2.2.2.1 (ix2 b q) = rowsOf (addII V c) (((cfg0.win 5).blk t).view.emb (ix2 b q))
  rw [(inv V c t.val t.isLt b q).2.2.2.1]
  obtain ⟨-, -, -, -, f2a, f2b, f3a, f3b, f4a, f4b, f5a, f5b, f6a, f6b⟩ := idx_facts0 t
  have e0 : ((((cfg0.win 5).blk t).view.emb (ix2 b q)) 0).val = t.val / 32 * 8 + b.val := by
    show win0_5.index t 0 * 8 + 1 * b.val = _
    rw [f5a]; omega
  have e1 : ((((cfg0.win 5).blk t).view.emb (ix2 b q)) 1).val = q.val := by
    show win0_5.index t 1 * 1024 + 1 * q.val = _
    rw [f5b]; omega
  exact run_last _ t.val hf q _ (by rw [e0]; have := b.isLt; omega) (Fin.ext e1)

/-- Every entry of the [16,1024] array lies in the block the last point of its core's run writes back. -/
theorem cover5 (i : S16x1024.Idx) :
    ∃ t : Fin cfg0.N, (cfg0.win 5).flush t = true ∧ i ∈ ((cfg0.win 5).blk t).view.set := by
  have hN : cfg0.N = 64 := N_0
  have hi0 : (i 0).val < 16 := idx2_lt0 i
  have hi1 : (i 1).val < 1024 := idx2_lt1 i
  refine ⟨⟨32 * ((i 0).val / 8) + 31, by rw [hN]; omega⟩, (flush0_5 _).mpr (by show (32 * ((i 0).val / 8) + 31) % 32 = 31; omega), ?_⟩
  rw [mem_blk5]
  obtain ⟨-, -, -, -, f2a, f2b, f3a, f3b, f4a, f4b, f5a, f5b, f6a, f6b⟩ := idx_facts0 (⟨32 * ((i 0).val / 8) + 31, by rw [hN]; omega⟩ : Fin cfg0.N)
  intro a
  match a with
  | ⟨0, _⟩ =>
    show win0_5.index _ 0 * 8 ≤ (i 0).val ∧ (i 0).val < win0_5.index _ 0 * 8 + 8
    rw [f5a]
    show (32 * ((i 0).val / 8) + 31) / 32 * 8 ≤ (i 0).val ∧ (i 0).val < (32 * ((i 0).val / 8) + 31) / 32 * 8 + 8
    omega
  | ⟨1, _⟩ =>
    show win0_5.index _ 1 * 1024 ≤ (i 1).val ∧ (i 1).val < win0_5.index _ 1 * 1024 + 1024
    rw [f5b]
    omega

/-- After the statistics pass, row b of `main_v0_3` holds, in column q, the total over the 32 blocks of core b / 8. -/
theorem stats5 (b : Fin 16) (q : Fin 1024) :
    (dat0 V c).arrAt 5 cfg0.N (ix2 b q) = ∑ s ∈ Finset.range 32, addII V c (32 * (b.val / 8) + s) q := by
  rw [(dat0 V c).arrAt_eq_of_cover 5 (rowsOf (addII V c)) (fun t hf => flushed5_eq V c t ((flush0_5 t).mp hf)) cover5]
  rfl

/-! ### Output window 6 (array `main_v0_4`) -/

theorem mem_blk6 (t : Fin cfg0.N) (i : S16x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v0_4).slice (win0_6.rect t)).set ↔ _
  rw [View.set_slice_whole, Rect.mem_set_unit]
  exact Iff.rfl

/-- What the last point of a core's run writes back is that core's eight rows of the totals. -/
theorem flushed6_eq (t : Fin cfg0.N) (hf : t.val % 32 = 31) :
    (dat0 V c).flushed 6 t = ((cfg0.win 6).blk t).view.read (Elt Ideal) (rowsOf (addRI V c)) := by
  show (cfg0.win 6).cut (grid0.coords t) ((dat0 V c).after 6 t) = _
  rw [after0_6]
  funext y
  obtain ⟨b, q, rfl⟩ : ∃ (b : Fin 8) (q : Fin 1024), y = ix2 b q := ⟨y 0, y 1, eq_ix2 y⟩
  rw [View.read_apply]
  show (outsAt0 V c t.val t.isLt).2.2.2.2 (ix2 b q) = rowsOf (addRI V c) (((cfg0.win 6).blk t).view.emb (ix2 b q))
  rw [(inv V c t.val t.isLt b q).2.2.2.2]
  obtain ⟨-, -, -, -, f2a, f2b, f3a, f3b, f4a, f4b, f5a, f5b, f6a, f6b⟩ := idx_facts0 t
  have e0 : ((((cfg0.win 6).blk t).view.emb (ix2 b q)) 0).val = t.val / 32 * 8 + b.val := by
    show win0_6.index t 0 * 8 + 1 * b.val = _
    rw [f6a]; omega
  have e1 : ((((cfg0.win 6).blk t).view.emb (ix2 b q)) 1).val = q.val := by
    show win0_6.index t 1 * 1024 + 1 * q.val = _
    rw [f6b]; omega
  exact run_last _ t.val hf q _ (by rw [e0]; have := b.isLt; omega) (Fin.ext e1)

/-- Every entry of the [16,1024] array lies in the block the last point of its core's run writes back. -/
theorem cover6 (i : S16x1024.Idx) :
    ∃ t : Fin cfg0.N, (cfg0.win 6).flush t = true ∧ i ∈ ((cfg0.win 6).blk t).view.set := by
  have hN : cfg0.N = 64 := N_0
  have hi0 : (i 0).val < 16 := idx2_lt0 i
  have hi1 : (i 1).val < 1024 := idx2_lt1 i
  refine ⟨⟨32 * ((i 0).val / 8) + 31, by rw [hN]; omega⟩, (flush0_6 _).mpr (by show (32 * ((i 0).val / 8) + 31) % 32 = 31; omega), ?_⟩
  rw [mem_blk6]
  obtain ⟨-, -, -, -, f2a, f2b, f3a, f3b, f4a, f4b, f5a, f5b, f6a, f6b⟩ := idx_facts0 (⟨32 * ((i 0).val / 8) + 31, by rw [hN]; omega⟩ : Fin cfg0.N)
  intro a
  match a with
  | ⟨0, _⟩ =>
    show win0_6.index _ 0 * 8 ≤ (i 0).val ∧ (i 0).val < win0_6.index _ 0 * 8 + 8
    rw [f6a]
    show (32 * ((i 0).val / 8) + 31) / 32 * 8 ≤ (i 0).val ∧ (i 0).val < (32 * ((i 0).val / 8) + 31) / 32 * 8 + 8
    omega
  | ⟨1, _⟩ =>
    show win0_6.index _ 1 * 1024 ≤ (i 1).val ∧ (i 1).val < win0_6.index _ 1 * 1024 + 1024
    rw [f6b]
    omega

/-- After the statistics pass, row b of `main_v0_4` holds, in column q, the total over the 32 blocks of core b / 8. -/
theorem stats6 (b : Fin 16) (q : Fin 1024) :
    (dat0 V c).arrAt 6 cfg0.N (ix2 b q) = ∑ s ∈ Finset.range 32, addRI V c (32 * (b.val / 8) + s) q := by
  rw [(dat0 V c).arrAt_eq_of_cover 6 (rowsOf (addRI V c)) (fun t hf => flushed6_eq V c t ((flush0_6 t).mp hf)) cover6]
  rfl

end Cert.KernelIdeal.KStats

end
-- ==== Proof.Spec.lean ====
/-
  Complex batch normalisation of one feature column, on the extended reals.

  A column holds N = 65536 samples (r n, i n).  Two ways to write the normalised, scaled and shifted
  sample (x, y):

  * the RAW-MOMENT form (`rawR`, `rawI`): from the five sums  Σ r, Σ i, Σ r², Σ i², Σ r·i  the means are
    μ = Σ/N, the covariance entries are  E[r²] − μr² + ε,  E[i²] − μi² + ε,  E[ri] − μr·μi ; the inverse square root
    W of the 2×2 covariance has the closed form  [[Cii + s, −Cri], [−Cri, Crr + s]] / (s·t)  with  s = √det,
    t = √(trace + 2s); the scale matrix Γ and W are folded into one matrix A = Γ·W and the centring into the shift
    b − A·μ, and the result is  A·(x, y) + (b − A·μ);

  * the CENTRED form (`cenR`, `cenI`): the covariance is the mean of products of deviations, each sample is
    centred, whitened by W, scaled by Γ and shifted by b.

  Both are spelled with the exact operations of the ideal float instance (`Ideal.div`, `Ideal.sqrt`) and the
  three f32 words that occur (N = 65536, ε ≈ 1e-5, 2), so that each program's result reads as one of them.
-/
import Idealize.ShloMosaic.PureOps.Ideal

noncomputable section

open scoped BigOperators

namespace Cert.Whiten

open Idealize.ShloMosaic

/-- The sample count 65536 as the f32 word both programs divide by. -/
abbrev nW : EReal := Ideal.ofBits .f32 0x47800000#32
/-- The regulariser ε (the f32 nearest 1e-5). -/
abbrev epsW : EReal := Ideal.ofBits .f32 0x3727C5AC#32
/-- The f32 word of 2. -/
abbrev twoW : EReal := Ideal.ofBits .f32 0x40000000#32

/-- s = √(Crr·Cii − Cri²), the square root of the covariance's determinant. -/
def detRoot (Crr Cii Cri : EReal) : EReal := Ideal.sqrt (Crr * Cii - Cri * Cri)
/-- s·t with t = √(Crr + Cii + 2s): the common denominator of the inverse square root. -/
def denom (Crr Cii Cri : EReal) : EReal :=
  detRoot Crr Cii Cri * Ideal.sqrt ((Crr + Cii) + twoW * detRoot Crr Cii Cri)
/-- The entries of the covariance's inverse square root. -/
def wRR (Crr Cii Cri : EReal) : EReal := Ideal.div (Cii + detRoot Crr Cii Cri) (denom Crr Cii Cri)
def wII (Crr Cii Cri : EReal) : EReal := Ideal.div (Crr + detRoot Crr Cii Cri) (denom Crr Cii Cri)
def wRI (Crr Cii Cri : EReal) : EReal := Ideal.div (-Cri) (denom Crr Cii Cri)

/-! ### Raw-moment form -/

/-- Variance entry from raw moments: E[a²] − μa² + ε. -/
def rawVar (Saa Sa : EReal) : EReal := (Ideal.div Saa nW - Ideal.div Sa nW * Ideal.div Sa nW) + epsW
/-- Covariance entry from raw moments: E[ab] − μa·μb. -/
def rawCov (Sab Sa Sb : EReal) : EReal := Ideal.div Sab nW - Ideal.div Sa nW * Ideal.div Sb nW

/-- Real part of the output in raw-moment, folded-affine form. -/
def rawR (Sr Si Srr Sii Sri grr gri br x y : EReal) : EReal :=
  let Crr := rawVar Srr Sr
  let Cii := rawVar Sii Si
  let Cri := rawCov Sri Sr Si
  let Arr := grr * wRR Crr Cii Cri + gri * wRI Crr Cii Cri
  let Ari := grr * wRI Crr Cii Cri + gri * wII Crr Cii Cri
  (Arr * x + Ari * y) + ((br - Arr * Ideal.div Sr nW) - Ari * Ideal.div Si nW)

/-- Imaginary part of the output in raw-moment, folded-affine form. -/
def rawI (Sr Si Srr Sii Sri gri gii bi x y : EReal) : EReal :=
  let Crr := rawVar Srr Sr
  let Cii := rawVar Sii Si
  let Cri := rawCov Sri Sr Si
  let Air := gri * wRR Crr Cii Cri + gii * wRI Crr Cii Cri
  let Aii := gri * wRI Crr Cii Cri + gii * wII Crr Cii Cri
  (Air * x + Aii * y) + ((bi - Air * Ideal.div Sr nW) - Aii * Ideal.div Si nW)

/-! ### Centred form -/

variable {ι : Type} [Fintype ι]

/-- Mean of a column. -/
def mean (a : ι → EReal) : EReal := Ideal.div (∑ n, a n) nW
/-- Mean of the products of deviations, plus ε: a variance entry. -/
def cenVar (a : ι → EReal) : EReal := Ideal.div (∑ n, (a n - mean a) * (a n - mean a)) nW + epsW
/-- Mean of the products of deviations of two columns: the covariance entry. -/
def cenCov (a b : ι → EReal) : EReal := Ideal.div (∑ n, (a n - mean a) * (b n - mean b)) nW

/-- Real part of the output in centred form. -/
def cenR (r i : ι → EReal) (grr gri br x y : EReal) : EReal :=
  let Crr := cenVar r
  let Cii := cenVar i
  let Cri := cenCov r i
  let wr := wRR Crr Cii Cri * (x - mean r) + wRI Crr Cii Cri * (y - mean i)
  let wi := wRI Crr Cii Cri * (x - mean r) + wII Crr Cii Cri * (y - mean i)
  (grr * wr + gri * wi) + br

/-- Imaginary part of the output in centred form. -/
def cenI (r i : ι → EReal) (gri gii bi x y : EReal) : EReal :=
  let Crr := cenVar r
  let Cii := cenVar i
  let Cri := cenCov r i
  let wr := wRR Crr Cii Cri * (x - mean r) + wRI Crr Cii Cri * (y - mean i)
  let wi := wRI Crr Cii Cri * (x - mean r) + wII Crr Cii Cri * (y - mean i)
  (gri * wr + gii * wi) + bi

end Cert.Whiten

end
-- ==== Proof.KCoef.lean ====
/-
  The folded affine coefficients of the raw-moment form.

  From the five column sums and the scale parameters, the rows the host computes between the two passes:
  A = Γ·W (four entries) and the shifts b − A·μ (two entries).  The apply pass then computes
  (A_rr·x + A_ri·y) + b_r and (A_ir·x + A_ii·y) + b_i, which are `rawR` and `rawI` by definition.
-/
import proofs.«158268_j23862838297129_2_alg».proof.Proof.Spec

noncomputable section

namespace Cert.Whiten

open Idealize.ShloMosaic

/-- A_rr = γ_rr·W_rr + γ_ri·W_ri. -/
def aRR (Sr Si Srr Sii Sri grr gri : EReal) : EReal :=
  grr * wRR (rawVar Srr Sr) (rawVar Sii Si) (rawCov Sri Sr Si) + gri * wRI (rawVar Srr Sr) (rawVar Sii Si) (rawCov Sri Sr Si)
/-- A_ri = γ_rr·W_ri + γ_ri·W_ii. -/
def aRI (Sr Si Srr Sii Sri grr gri : EReal) : EReal :=
  grr * wRI (rawVar Srr Sr) (rawVar Sii Si) (rawCov Sri Sr Si) + gri * wII (rawVar Srr Sr) (rawVar Sii Si) (rawCov Sri Sr Si)
/-- A_ir = γ_ri·W_rr + γ_ii·W_ri. -/
def aIR (Sr Si Srr Sii Sri gri gii : EReal) : EReal :=
  gri * wRR (rawVar Srr Sr) (rawVar Sii Si) (rawCov Sri Sr Si) + gii * wRI (rawVar Srr Sr) (rawVar Sii Si) (rawCov Sri Sr Si)
/-- A_ii = γ_ri·W_ri + γ_ii·W_ii. -/
def aII (Sr Si Srr Sii Sri gri gii : EReal) : EReal :=
  gri * wRI (rawVar Srr Sr) (rawVar Sii Si) (rawCov Sri Sr Si) + gii * wII (rawVar Srr Sr) (rawVar Sii Si) (rawCov Sri Sr Si)
/-- b_r = β_r − A_rr·μ_r − A_ri·μ_i. -/
def bR (Sr Si Srr Sii Sri grr gri br : EReal) : EReal :=
  (br - aRR Sr Si Srr Sii Sri grr gri * Ideal.div Sr nW) - aRI Sr Si Srr Sii Sri grr gri * Ideal.div Si nW
/-- b_i = β_i − A_ir·μ_r − A_ii·μ_i. -/
def bI (Sr Si Srr Sii Sri gri gii bi : EReal) : EReal :=
  (bi - aIR Sr Si Srr Sii Sri gri gii * Ideal.div Sr nW) - aII Sr Si Srr Sii Sri gri gii * Ideal.div Si nW

/-- The apply pass's real output is the raw-moment form. -/
theorem affine_eq_rawR (Sr Si Srr Sii Sri grr gri br x y : EReal) :
    (aRR Sr Si Srr Sii Sri grr gri * x + aRI Sr Si Srr Sii Sri grr gri * y) + bR Sr Si Srr Sii Sri grr gri br
      = rawR Sr Si Srr Sii Sri grr gri br x y := rfl

/-- The apply pass's imaginary output is the raw-moment form. -/
theorem affine_eq_rawI (Sr Si Srr Sii Sri gri gii bi x y : EReal) :
    (aIR Sr Si Srr Sii Sri gri gii * x + aII Sr Si Srr Sii Sri gri gii * y) + bI Sr Si Srr Sii Sri gri gii bi
      = rawI Sr Si Srr Sii Sri gri gii bi x y := rfl

end Cert.Whiten

end
-- ==== Proof.KHost.lean ====
/-
  The host stretch between the two passes, read at a column.

  Between the statistics pass and the apply pass the program computes, on [1, 1024] rows, the folded
  affine coefficients of the raw-moment form: from the five partial-sum arrays (rows 0 and 8 of each hold
  the two halves of a column's sum) the means μ = Σ/N, the covariance entries E[r²] − μr² + ε,
  E[i²] − μi² + ε, E[ri] − μr·μi, the square root s of the determinant, t = √(trace + 2s), the entries
  (Cii + s)/(s·t), (Crr + s)/(s·t), −Cri/(s·t) of the inverse square root W, then A = Γ·W and b − A·μ.
  Every operation is elementwise except three layout moves that move no data (a slice of one row, a
  broadcast of a scalar word, a vector read as a one-row matrix), so column q of each result row is the
  scalar formula at column q's sums and parameters.
-/
import proofs.«158268_j23862838297129_2_alg».proof.Proof.Gen.KernelIdeal.Frame
import proofs.«158268_j23862838297129_2_alg».proof.Proof.KCoef
import proofs.«158268_j23862838297129_2_alg».proof.Proof.LibHostIdx
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.KHost

open Idealize.ShloMosaic Idealize.ShloMosaic.ValueIdx Cert.KernelIdeal Cert.KernelIdeal.Gen Cert.Whiten

/-! ## The rows, as functions of the arrays they are computed from

Every row below is a [1, 1024] array over the extended reals; a partial-sum array is [16, 1024] and a
parameter is [1024].  The definitions repeat, operation by operation, what the host computes between the
two passes: the two partial rows added, the mean, the covariance entries from raw moments, the square
root s of the determinant, the denominator s·t, the three entries of the inverse square root, the
parameters as rows, and the folded coefficients. -/

/-- A [1, 1024] row of extended reals. -/
abbrev Row : Type := FVec Ideal S1x1024 .f32
/-- A [16, 1024] array of partial sums (rows 0 and 8 carry the two halves). -/
abbrev Part : Type := FVec Ideal S16x1024 .f32
/-- A [1024] parameter vector. -/
abbrev Par : Type := FVec Ideal S1024 .f32

/-- Σ over the column: row 0 plus row 8 of a partial-sum array. -/
def rowSum (v : Part) : Row :=
  addf (extractStridedSlice S1x1024 ![0, 0] v slices_S16x1024_S1x1024_0_0)
    (extractStridedSlice S1x1024 ![8, 0] v slices_S16x1024_S1x1024_8_0)
/-- The row that holds one f32 word everywhere. -/
def wordRow (w : BitVec 32) : Row := broadcastInDim S1x1024 ![] bcast_S_S1x1024 (constant (F := Ideal) S_ .f32 w)
/-- μ = Σ / N. -/
def meanRow (v : Part) : Row := Host.divf (rowSum v) (wordRow 0x47800000#32)
/-- E[a²] − μa² + ε. -/
def varRow (vaa va : Part) : Row :=
  addf (subf (Host.divf (rowSum vaa) (wordRow 0x47800000#32)) (mulf (meanRow va) (meanRow va))) (wordRow 0x3727C5AC#32)
/-- E[ab] − μa·μb. -/
def covRow (vab va vb : Part) : Row :=
  subf (Host.divf (rowSum vab) (wordRow 0x47800000#32)) (mulf (meanRow va) (meanRow vb))
/-- s = √(Crr·Cii − Cri²). -/
def detRootRow (Crr Cii Cri : Row) : Row := Host.sqrt (subf (mulf Crr Cii) (mulf Cri Cri))
/-- s·t, t = √(Crr + Cii + 2s). -/
def denomRow (Crr Cii Cri : Row) : Row :=
  mulf (detRootRow Crr Cii Cri)
    (Host.sqrt (addf (addf Crr Cii) (mulf (wordRow 0x40000000#32) (detRootRow Crr Cii Cri))))
/-- W_rr = (Cii + s) / (s·t). -/
def wRRRow (Crr Cii Cri : Row) : Row := Host.divf (addf Cii (detRootRow Crr Cii Cri)) (denomRow Crr Cii Cri)
/-- W_ii = (Crr + s) / (s·t). -/
def wIIRow (Crr Cii Cri : Row) : Row := Host.divf (addf Crr (detRootRow Crr Cii Cri)) (denomRow Crr Cii Cri)
/-- W_ri = −Cri / (s·t). -/
def wRIRow (Crr Cii Cri : Row) : Row := Host.divf (Host.negf Cri) (denomRow Crr Cii Cri)
/-- A parameter vector as a row. -/
def parRow (p : Par) : Row := shapeCast S1x1024 p shapeCasts_S1024_S1x1024

/-- A_rr = γ_rr·W_rr + γ_ri·W_ri, as a row. -/
def aRRRow (v0 v1 v2 v3 v4 : Part) (grr gri : Par) : Row :=
  addf (mulf (parRow grr) (wRRRow (varRow v2 v0) (varRow v3 v1) (covRow v4 v0 v1)))
    (mulf (parRow gri) (wRIRow (varRow v2 v0) (varRow v3 v1) (covRow v4 v0 v1)))
/-- A_ri = γ_rr·W_ri + γ_ri·W_ii, as a row. -/
def aRIRow (v0 v1 v2 v3 v4 : Part) (grr gri : Par) : Row :=
  addf (mulf (parRow grr) (wRIRow (varRow v2 v0) (varRow v3 v1) (covRow v4 v0 v1)))
    (mulf (parRow gri) (wIIRow (varRow v2 v0) (varRow v3 v1) (covRow v4 v0 v1)))
/-- A_ir = γ_ri·W_rr + γ_ii·W_ri, as a row. -/
def aIRRow (v0 v1 v2 v3 v4 : Part) (gri gii : Par) : Row :=
  addf (mulf (parRow gri) (wRRRow (varRow v2 v0) (varRow v3 v1) (covRow v4 v0 v1)))
    (mulf (parRow gii) (wRIRow (varRow v2 v0) (varRow v3 v1) (covRow v4 v0 v1)))
/-- A_ii = γ_ri·W_ri + γ_ii·W_ii, as a row. -/
def aIIRow (v0 v1 v2 v3 v4 : Part) (gri gii : Par) : Row :=
  addf (mulf (parRow gri) (wRIRow (varRow v2 v0) (varRow v3 v1) (covRow v4 v0 v1)))
    (mulf (parRow gii) (wIIRow (varRow v2 v0) (varRow v3 v1) (covRow v4 v0 v1)))
/-- b_r = β_r − A_rr·μ_r − A_ri·μ_i, as a row. -/
def bRRow (v0 v1 v2 v3 v4 : Part) (grr gri br : Par) : Row :=
  subf (subf (parRow br) (mulf (aRRRow v0 v1 v2 v3 v4 grr gri) (meanRow v0)))
    (mulf (aRIRow v0 v1 v2 v3 v4 grr gri) (meanRow v1))
/-- b_i = β_i − A_ir·μ_r − A_ii·μ_i, as a row. -/
def bIRow (v0 v1 v2 v3 v4 : Part) (gri gii bi : Par) : Row :=
  subf (subf (parRow bi) (mulf (aIRRow v0 v1 v2 v3 v4 gri gii) (meanRow v0)))
    (mulf (aIIRow v0 v1 v2 v3 v4 gri gii) (meanRow v1))

/-! ## The host stretch computes these rows

The fold of the host operations over any buffer contents W, read at each of the six result buffers, is
the corresponding row above at W's partial-sum arrays and parameters: every operation's result is rewritten
to its function's value at its operands, and the composed term is the definition unfolded. -/

set_option maxHeartbeats 4000000 in
/-- The buffer of A_rr after the host stretch. -/
theorem after_aRR (W : Valuation τ sig (Elt Ideal)) :
    (StableHlo.after (hostOps1 (F := Ideal)) W (Proc.devRef .tc main_v59) : Row)
      = aRRRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg2)) (W (Proc.devRef .tc main_arg3)) := by
  after_results_simp
  rfl

set_option maxHeartbeats 4000000 in
/-- The buffer of A_ri after the host stretch. -/
theorem after_aRI (W : Valuation τ sig (Elt Ideal)) :
    (StableHlo.after (hostOps1 (F := Ideal)) W (Proc.devRef .tc main_v62) : Row)
      = aRIRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg2)) (W (Proc.devRef .tc main_arg3)) := by
  after_results_simp
  rfl

set_option maxHeartbeats 4000000 in
/-- The buffer of A_ir after the host stretch. -/
theorem after_aIR (W : Valuation τ sig (Elt Ideal)) :
    (StableHlo.after (hostOps1 (F := Ideal)) W (Proc.devRef .tc main_v65) : Row)
      = aIRRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg3)) (W (Proc.devRef .tc main_arg4)) := by
  after_results_simp
  rfl

set_option maxHeartbeats 4000000 in
/-- The buffer of A_ii after the host stretch. -/
theorem after_aII (W : Valuation τ sig (Elt Ideal)) :
    (StableHlo.after (hostOps1 (F := Ideal)) W (Proc.devRef .tc main_v68) : Row)
      = aIIRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg3)) (W (Proc.devRef .tc main_arg4)) := by
  after_results_simp
  rfl

set_option maxHeartbeats 4000000 in
/-- The buffer of b_r after the host stretch. -/
theorem after_bR (W : Valuation τ sig (Elt Ideal)) :
    (StableHlo.after (hostOps1 (F := Ideal)) W (Proc.devRef .tc main_v72) : Row)
      = bRRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg2)) (W (Proc.devRef .tc main_arg3)) (W (Proc.devRef .tc main_arg5)) := by
  after_results_simp
  rfl

set_option maxHeartbeats 4000000 in
/-- The buffer of b_i after the host stretch. -/
theorem after_bI (W : Valuation τ sig (Elt Ideal)) :
    (StableHlo.after (hostOps1 (F := Ideal)) W (Proc.devRef .tc main_v76) : Row)
      = bIRow (W (Proc.devRef .tc main_v0_0)) (W (Proc.devRef .tc main_v0_1)) (W (Proc.devRef .tc main_v0_2))
          (W (Proc.devRef .tc main_v0_3)) (W (Proc.devRef .tc main_v0_4))
          (W (Proc.devRef .tc main_arg3)) (W (Proc.devRef .tc main_arg4)) (W (Proc.devRef .tc main_arg6)) := by
  after_results_simp
  rfl

/-! ## The rows read at a column

At column q of the one row, each elementwise operation acts on the entries, the word rows read their word,
the two slices read rows 0 and 8 of the partial-sum array and a parameter row reads the parameter's
entry q; so each row reads as the scalar formula of the same name at the column's five sums and its
parameters. -/

/-- The column's sum: entry (0, q) plus entry (8, q) of a partial-sum array. -/
abbrev colSum (v : Part) (q : Fin 1024) : EReal := v (ix2 (0 : Fin 16) q) + v (ix2 (8 : Fin 16) q)

theorem rowSum_apply (v : Part) (q : Fin 1024) : rowSum v (ix2 (0 : Fin 1) q) = colSum v q := by
  show extractStridedSlice S1x1024 ![0, 0] v slices_S16x1024_S1x1024_0_0 (ix2 (0 : Fin 1) q)
      + extractStridedSlice S1x1024 ![8, 0] v slices_S16x1024_S1x1024_8_0 (ix2 (0 : Fin 1) q) = _
  rw [extractStridedSlice_apply ![0, 0] v slices_S16x1024_S1x1024_0_0 (ix2 (0 : Fin 1) q) (ix2 (0 : Fin 16) q)
        (fun a => match a with | ⟨0, _⟩ => rfl | ⟨1, _⟩ => (Nat.zero_add _).symm),
    extractStridedSlice_apply ![8, 0] v slices_S16x1024_S1x1024_8_0 (ix2 (0 : Fin 1) q) (ix2 (8 : Fin 16) q)
        (fun a => match a with | ⟨0, _⟩ => rfl | ⟨1, _⟩ => (Nat.zero_add _).symm)]

theorem wordRow_apply (w : BitVec 32) (j : S1x1024.Idx) : wordRow w j = Ideal.ofBits .f32 w := rfl

theorem parRow_apply (p : Par) (q : Fin 1024) : parRow p (ix2 (0 : Fin 1) q) = p (ix1 q) :=
  Cert.Lib.HostIdx.castRow_apply shapeCasts_S1024_S1x1024 p q

theorem meanRow_apply (v : Part) (q : Fin 1024) : meanRow v (ix2 (0 : Fin 1) q) = Ideal.div (colSum v q) nW := by
  show Ideal.div (rowSum v (ix2 (0 : Fin 1) q)) nW = _
  rw [rowSum_apply]

theorem varRow_apply (vaa va : Part) (q : Fin 1024) :
    varRow vaa va (ix2 (0 : Fin 1) q) = rawVar (colSum vaa q) (colSum va q) := by
  show (Ideal.div (rowSum vaa (ix2 (0 : Fin 1) q)) nW
      - Ideal.div (rowSum va (ix2 (0 : Fin 1) q)) nW * Ideal.div (rowSum va (ix2 (0 : Fin 1) q)) nW) + epsW = _
  rw [rowSum_apply, rowSum_apply]; rfl

theorem covRow_apply (vab va vb : Part) (q : Fin 1024) :
    covRow vab va vb (ix2 (0 : Fin 1) q) = rawCov (colSum vab q) (colSum va q) (colSum vb q) := by
  show Ideal.div (rowSum vab (ix2 (0 : Fin 1) q)) nW
      - Ideal.div (rowSum va (ix2 (0 : Fin 1) q)) nW * Ideal.div (rowSum vb (ix2 (0 : Fin 1) q)) nW = _
  rw [rowSum_apply, rowSum_apply, rowSum_apply]; rfl

theorem wRRRow_apply (Crr Cii Cri : Row) (j : S1x1024.Idx) : wRRRow Crr Cii Cri j = wRR (Crr j) (Cii j) (Cri j) := rfl
theorem wIIRow_apply (Crr Cii Cri : Row) (j : S1x1024.Idx) : wIIRow Crr Cii Cri j = wII (Crr j) (Cii j) (Cri j) := rfl
theorem wRIRow_apply (Crr Cii Cri : Row) (j : S1x1024.Idx) : wRIRow Crr Cii Cri j = wRI (Crr j) (Cii j) (Cri j) := rfl

theorem aRRRow_apply (v0 v1 v2 v3 v4 : Part) (grr gri : Par) (q : Fin 1024) :
    aRRRow v0 v1 v2 v3 v4 grr gri (ix2 (0 : Fin 1) q)
      = aRR (colSum v0 q) (colSum v1 q) (colSum v2 q) (colSum v3 q) (colSum v4 q) (grr (ix1 q)) (gri (ix1 q)) := by
  show parRow grr (ix2 (0 : Fin 1) q) * wRRRow (varRow v2 v0) (varRow v3 v1) (covRow v4 v0 v1) (ix2 (0 : Fin 1) q)
      + parRow gri (ix2 (0 : Fin 1) q) * wRIRow (varRow v2 v0) (varRow v3 v1) (covRow v4 v0 v1) (ix2 (0 : Fin 1) q) = _
  rw [wRRRow_apply, wRIRow_apply, parRow_apply, parRow_apply, varRow_apply, varRow_apply, covRow_apply]; rfl

theorem aRIRow_apply (v0 v1 v2 v3 v4 : Part) (grr gri : Par) (q : Fin 1024) :
    aRIRow v0 v1 v2 v3 v4 grr gri (ix2 (0 : Fin 1) q)
      = aRI (colSum v0 q) (colSum v1 q) (colSum v2 q) (colSum v3 q) (colSum v4 q) (grr (ix1 q)) (gri (ix1 q)) := by
  show parRow grr (ix2 (0 : Fin 1) q) * wRIRow (varRow v2 v0) (varRow v3 v1) (covRow v4 v0 v1) (ix2 (0 : Fin 1) q)
      + parRow gri (ix2 (0 : Fin 1) q) * wIIRow (varRow v2 v0) (varRow v3 v1) (covRow v4 v0 v1) (ix2 (0 : Fin 1) q) = _
  rw [wRIRow_apply, wIIRow_apply, parRow_apply, parRow_apply, varRow_apply, varRow_apply, covRow_apply]; rfl

theorem aIRRow_apply (v0 v1 v2 v3 v4 : Part) (gri gii : Par) (q : Fin 1024) :
    aIRRow v0 v1 v2 v3 v4 gri gii (ix2 (0 : Fin 1) q)
      = aIR (colSum v0 q) (colSum v1 q) (colSum v2 q) (colSum v3 q) (colSum v4 q) (gri (ix1 q)) (gii (ix1 q)) := by
  show parRow gri (ix2 (0 : Fin 1) q) * wRRRow (varRow v2 v0) (varRow v3 v1) (covRow v4 v0 v1) (ix2 (0 : Fin 1) q)
      + parRow gii (ix2 (0 : Fin 1) q) * wRIRow (varRow v2 v0) (varRow v3 v1) (covRow v4 v0 v1) (ix2 (0 : Fin 1) q) = _
  rw [wRRRow_apply, wRIRow_apply, parRow_apply, parRow_apply, varRow_apply, varRow_apply, covRow_apply]; rfl

theorem aIIRow_apply (v0 v1 v2 v3 v4 : Part) (gri gii : Par) (q : Fin 1024) :
    aIIRow v0 v1 v2 v3 v4 gri gii (ix2 (0 : Fin 1) q)
      = aII (colSum v0 q) (colSum v1 q) (colSum v2 q) (colSum v3 q) (colSum v4 q) (gri (ix1 q)) (gii (ix1 q)) := by
  show parRow gri (ix2 (0 : Fin 1) q) * wRIRow (varRow v2 v0) (varRow v3 v1) (covRow v4 v0 v1) (ix2 (0 : Fin 1) q)
      + parRow gii (ix2 (0 : Fin 1) q) * wIIRow (varRow v2 v0) (varRow v3 v1) (covRow v4 v0 v1) (ix2 (0 : Fin 1) q) = _
  rw [wRIRow_apply, wIIRow_apply, parRow_apply, parRow_apply, varRow_apply, varRow_apply, covRow_apply]; rfl

theorem bRRow_apply (v0 v1 v2 v3 v4 : Part) (grr gri br : Par) (q : Fin 1024) :
    bRRow v0 v1 v2 v3 v4 grr gri br (ix2 (0 : Fin 1) q)
      = bR (colSum v0 q) (colSum v1 q) (colSum v2 q) (colSum v3 q) (colSum v4 q) (grr (ix1 q)) (gri (ix1 q)) (br (ix1 q)) := by
  show (parRow br (ix2 (0 : Fin 1) q) - aRRRow v0 v1 v2 v3 v4 grr gri (ix2 (0 : Fin 1) q) * meanRow v0 (ix2 (0 : Fin 1) q))
      - aRIRow v0 v1 v2 v3 v4 grr gri (ix2 (0 : Fin 1) q) * meanRow v1 (ix2 (0 : Fin 1) q) = _
  rw [aRRRow_apply, aRIRow_apply, parRow_apply, meanRow_apply, meanRow_apply]; rfl

theorem bIRow_apply (v0 v1 v2 v3 v4 : Part) (gri gii bi : Par) (q : Fin 1024) :
    bIRow v0 v1 v2 v3 v4 gri gii bi (ix2 (0 : Fin 1) q)
      = bI (colSum v0 q) (colSum v1 q) (colSum v2 q) (colSum v3 q) (colSum v4 q) (gri (ix1 q)) (gii (ix1 q)) (bi (ix1 q)) := by
  show (parRow bi (ix2 (0 : Fin 1) q) - aIRRow v0 v1 v2 v3 v4 gri gii (ix2 (0 : Fin 1) q) * meanRow v0 (ix2 (0 : Fin 1) q))
      - aIIRow v0 v1 v2 v3 v4 gri gii (ix2 (0 : Fin 1) q) * meanRow v1 (ix2 (0 : Fin 1) q) = _
  rw [aIRRow_apply, aIIRow_apply, parRow_apply, meanRow_apply, meanRow_apply]; rfl

/-! ## The host stretch read at a column

For any buffer contents W before the stretch and any column q: with the five column sums
Σr, Σi, Σr², Σi², Σr·i read off rows 0 and 8 of the partial-sum arrays and the parameters read at q,
the six result rows hold the folded coefficients A_rr, A_ri, A_ir, A_ii, b_r, b_i of the raw-moment form. -/

/-- Entry (0, q) of the A_rr buffer after the host stretch. -/
theorem host_aRR (W : Valuation τ sig (Elt Ideal)) (q : Fin 1024) :
    (StableHlo.after (hostOps1 (F := Ideal)) W (Proc.devRef .tc main_v59) : Row) (ix2 (0 : Fin 1) q)
      = aRR (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg2) : Par) (ix1 q)) ((W (Proc.devRef .tc main_arg3) : Par) (ix1 q)) :=
  (congrFun (after_aRR W) (ix2 (0 : Fin 1) q)).trans (aRRRow_apply _ _ _ _ _ _ _ q)

/-- Entry (0, q) of the A_ri buffer after the host stretch. -/
theorem host_aRI (W : Valuation τ sig (Elt Ideal)) (q : Fin 1024) :
    (StableHlo.after (hostOps1 (F := Ideal)) W (Proc.devRef .tc main_v62) : Row) (ix2 (0 : Fin 1) q)
      = aRI (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg2) : Par) (ix1 q)) ((W (Proc.devRef .tc main_arg3) : Par) (ix1 q)) :=
  (congrFun (after_aRI W) (ix2 (0 : Fin 1) q)).trans (aRIRow_apply _ _ _ _ _ _ _ q)

/-- Entry (0, q) of the A_ir buffer after the host stretch. -/
theorem host_aIR (W : Valuation τ sig (Elt Ideal)) (q : Fin 1024) :
    (StableHlo.after (hostOps1 (F := Ideal)) W (Proc.devRef .tc main_v65) : Row) (ix2 (0 : Fin 1) q)
      = aIR (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg3) : Par) (ix1 q)) ((W (Proc.devRef .tc main_arg4) : Par) (ix1 q)) :=
  (congrFun (after_aIR W) (ix2 (0 : Fin 1) q)).trans (aIRRow_apply _ _ _ _ _ _ _ q)

/-- Entry (0, q) of the A_ii buffer after the host stretch. -/
theorem host_aII (W : Valuation τ sig (Elt Ideal)) (q : Fin 1024) :
    (StableHlo.after (hostOps1 (F := Ideal)) W (Proc.devRef .tc main_v68) : Row) (ix2 (0 : Fin 1) q)
      = aII (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg3) : Par) (ix1 q)) ((W (Proc.devRef .tc main_arg4) : Par) (ix1 q)) :=
  (congrFun (after_aII W) (ix2 (0 : Fin 1) q)).trans (aIIRow_apply _ _ _ _ _ _ _ q)

/-- Entry (0, q) of the b_r buffer after the host stretch. -/
theorem host_bR (W : Valuation τ sig (Elt Ideal)) (q : Fin 1024) :
    (StableHlo.after (hostOps1 (F := Ideal)) W (Proc.devRef .tc main_v72) : Row) (ix2 (0 : Fin 1) q)
      = bR (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg2) : Par) (ix1 q)) ((W (Proc.devRef .tc main_arg3) : Par) (ix1 q)) ((W (Proc.devRef .tc main_arg5) : Par) (ix1 q)) :=
  (congrFun (after_bR W) (ix2 (0 : Fin 1) q)).trans (bRRow_apply _ _ _ _ _ _ _ _ q)

/-- Entry (0, q) of the b_i buffer after the host stretch. -/
theorem host_bI (W : Valuation τ sig (Elt Ideal)) (q : Fin 1024) :
    (StableHlo.after (hostOps1 (F := Ideal)) W (Proc.devRef .tc main_v76) : Row) (ix2 (0 : Fin 1) q)
      = bI (colSum (W (Proc.devRef .tc main_v0_0)) q) (colSum (W (Proc.devRef .tc main_v0_1)) q) (colSum (W (Proc.devRef .tc main_v0_2)) q)
          (colSum (W (Proc.devRef .tc main_v0_3)) q) (colSum (W (Proc.devRef .tc main_v0_4)) q)
          ((W (Proc.devRef .tc main_arg3) : Par) (ix1 q)) ((W (Proc.devRef .tc main_arg4) : Par) (ix1 q)) ((W (Proc.devRef .tc main_arg6) : Par) (ix1 q)) :=
  (congrFun (after_bI W) (ix2 (0 : Fin 1) q)).trans (bIRow_apply _ _ _ _ _ _ _ _ q)

/-- The six entries together. -/
theorem host_rows (W : Valuation τ sig (Elt Ideal)) (q : Fin 1024) :
    let Sr := colSum (W (Proc.devRef .tc main_v0_0)) q
    let Si := colSum (W (Proc.devRef .tc main_v0_1)) q
    let Srr := colSum (W (Proc.devRef .tc main_v0_2)) q
    let Sii := colSum (W (Proc.devRef .tc main_v0_3)) q
    let Sri := colSum (W (Proc.devRef .tc main_v0_4)) q
    let grr := ((W (Proc.devRef .tc main_arg2) : Par) (ix1 q))
    let gri := ((W (Proc.devRef .tc main_arg3) : Par) (ix1 q))
    let gii := ((W (Proc.devRef .tc main_arg4) : Par) (ix1 q))
    let br := ((W (Proc.devRef .tc main_arg5) : Par) (ix1 q))
    let bi := ((W (Proc.devRef .tc main_arg6) : Par) (ix1 q))
    (StableHlo.after (hostOps1 (F := Ideal)) W (Proc.devRef .tc main_v59) : Row) (ix2 (0 : Fin 1) q) = aRR Sr Si Srr Sii Sri grr gri
    ∧ (StableHlo.after (hostOps1 (F := Ideal)) W (Proc.devRef .tc main_v62) : Row) (ix2 (0 : Fin 1) q) = aRI Sr Si Srr Sii Sri grr gri
    ∧ (StableHlo.after (hostOps1 (F := Ideal)) W (Proc.devRef .tc main_v65) : Row) (ix2 (0 : Fin 1) q) = aIR Sr Si Srr Sii Sri gri gii
    ∧ (StableHlo.after (hostOps1 (F := Ideal)) W (Proc.devRef .tc main_v68) : Row) (ix2 (0 : Fin 1) q) = aII Sr Si Srr Sii Sri gri gii
    ∧ (StableHlo.after (hostOps1 (F := Ideal)) W (Proc.devRef .tc main_v72) : Row) (ix2 (0 : Fin 1) q) = bR Sr Si Srr Sii Sri grr gri br
    ∧ (StableHlo.after (hostOps1 (F := Ideal)) W (Proc.devRef .tc main_v76) : Row) (ix2 (0 : Fin 1) q) = bI Sr Si Srr Sii Sri gri gii bi :=
  ⟨host_aRR W q, host_aRI W q, host_aIR W q, host_aII W q, host_bR W q, host_bI W q⟩

end Cert.KernelIdeal.KHost

end
-- ==== Proof.KApply.lean ====
/-
  The apply pass read at an index.

  The second region of the program walks the 65536 samples in 64 blocks of 1024 rows.  At each block it reads the block
  of the two sample arrays, six rows of coefficients (one value per feature, the same rows at every block), and writes
  to the block of each of its two results, at row r and feature q,

      g0 q · x0 (r, q) + g1 q · x1 (r, q) + b q

  — a row (g0, g1) of a 2×2 matrix and a shift b per feature, applied to the pair of samples.  Each result block is
  therefore the block of ONE function of the whole arrays (\`affine\`): the samples' blocks sit at the same array index
  as the result's block, and the coefficient rows are read at row 0 and the result's column.  The 64 blocks tile the
  array (row r lies in block r / 1024), so after the region each result array is that function at every index.
-/
import proofs.«158268_j23862838297129_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.KApply

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The affine map of one sample: per feature (column) q a row of the 2×2 matrix (g0, g1) and a shift b, applied to the
    pair (a0, a1) at every sample (row) of the array. -/
abbrev affine (a0 a1 : S65536x1024.Idx → EReal) (g0 g1 b : S1x1024.Idx → EReal) : S65536x1024.Idx → EReal :=
  fun i => (g0 (ix2 (0 : Fin 1) (i 1)) * a0 i + g1 (ix2 (0 : Fin 1) (i 1)) * a1 i) + b (ix2 (0 : Fin 1) (i 1))

/-- The first payload at an index: the row of coefficients broadcast over the block's samples. -/
theorem pay1_apply (x0 x1 : Vec Ideal S1024x1024 .f32) (a b d : Vec Ideal S1x1024 .f32) (r q : Fin 1024) :
    k1_pay1 x0 x1 a b d (ix2 r q)
      = (a (ix2 (0 : Fin 1) q) * x0 (ix2 r q) + b (ix2 (0 : Fin 1) q) * x1 (ix2 r q)) + d (ix2 (0 : Fin 1) q) := by
  unfold k1_pay1
  simp only [shapeCast_self]
  show (broadcastTo S1024x1024 a _ (ix2 r q) * x0 (ix2 r q) + broadcastTo S1024x1024 b _ (ix2 r q) * x1 (ix2 r q))
      + broadcastTo S1024x1024 d _ (ix2 r q) = _
  rw [broadcastTo_1b_ab_apply a _ r q, broadcastTo_1b_ab_apply b _ r q, broadcastTo_1b_ab_apply d _ r q]

/-- The second payload likewise. -/
theorem pay2_apply (x0 x1 : Vec Ideal S1024x1024 .f32) (a b d : Vec Ideal S1x1024 .f32) (r q : Fin 1024) :
    k1_pay2 x0 x1 a b d (ix2 r q)
      = (a (ix2 (0 : Fin 1) q) * x0 (ix2 r q) + b (ix2 (0 : Fin 1) q) * x1 (ix2 r q)) + d (ix2 (0 : Fin 1) q) := by
  unfold k1_pay2
  simp only [shapeCast_self]
  show (broadcastTo S1024x1024 a _ (ix2 r q) * x0 (ix2 r q) + broadcastTo S1024x1024 b _ (ix2 r q) * x1 (ix2 r q))
      + broadcastTo S1024x1024 d _ (ix2 r q) = _
  rw [broadcastTo_1b_ab_apply a _ r q, broadcastTo_1b_ab_apply b _ r q, broadcastTo_1b_ab_apply d _ r q]

/-- The index maps over the 64 grid points: the two sample arrays and the two results move down by one block of rows
    per point; the six coefficient rows stay at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

theorem hz : (![0, 0] : Fin 2 → Nat) = fun _ => 0 := funext fun a => by fin_cases a <;> rfl

/-- Block t of the first result at a block index (r, q): the payload of the input blocks there is the affine map of the
    whole arrays at the array index the result's block puts (r, q) at.  The samples' blocks sit at the same array index;
    the coefficient rows' one block reads column q of row 0. -/
theorem block8_apply (A0 A1 : S65536x1024.Idx → EReal) (G0 G1 B : S1x1024.Idx → EReal) (t : Fin cfg1.N) (r q : Fin 1024) :
    k1_pay1 (((cfg1.win 0).blk t).view.read (Elt Ideal) A0) (((cfg1.win 1).blk t).view.read (Elt Ideal) A1)
        (((cfg1.win 2).blk t).view.read (Elt Ideal) G0) (((cfg1.win 3).blk t).view.read (Elt Ideal) G1)
        (((cfg1.win 6).blk t).view.read (Elt Ideal) B) (ix2 r q)
      = affine A0 A1 G0 G1 B (((cfg1.win 8).blk t).view.emb (ix2 r q)) := by
  refine (pay1_apply _ _ _ _ _ r q).trans ?_
  obtain ⟨⟨a0, a1⟩, ⟨b0, b1⟩, ⟨o0, o1⟩, -, ⟨c20, c21⟩, ⟨c30, c31⟩, -, -, ⟨c60, c61⟩, -⟩ := idx_facts t
  show (G0 (((cfg1.win 2).blk t).view.emb (ix2 (0 : Fin 1) q)) * A0 (((cfg1.win 0).blk t).view.emb (ix2 r q))
        + G1 (((cfg1.win 3).blk t).view.emb (ix2 (0 : Fin 1) q)) * A1 (((cfg1.win 1).blk t).view.emb (ix2 r q)))
        + B (((cfg1.win 6).blk t).view.emb (ix2 (0 : Fin 1) q))
      = (G0 (ix2 (0 : Fin 1) ((((cfg1.win 8).blk t).view.emb (ix2 r q)) 1)) * A0 (((cfg1.win 8).blk t).view.emb (ix2 r q))
        + G1 (ix2 (0 : Fin 1) ((((cfg1.win 8).blk t).view.emb (ix2 r q)) 1)) * A1 (((cfg1.win 8).blk t).view.emb (ix2 r q)))
        + B (ix2 (0 : Fin 1) ((((cfg1.win 8).blk t).view.emb (ix2 r q)) 1))
  have hr : r.val < 1024 := r.isLt
  have hq : q.val < 1024 := q.isLt
  have h0 : ((cfg1.win 0).blk t).view.emb (ix2 r q) = ((cfg1.win 8).blk t).view.emb (ix2 r q) := by
    funext a; apply Fin.ext
    match a with
    | ⟨0, _⟩ => show win1_0.index t (0 : Fin 2) * 1024 + 1 * r.val = win1_8.index t (0 : Fin 2) * 1024 + 1 * r.val; omega
    | ⟨1, _⟩ => show win1_0.index t (1 : Fin 2) * 1024 + 1 * q.val = win1_8.index t (1 : Fin 2) * 1024 + 1 * q.val; omega
  have h1 : ((cfg1.win 1).blk t).view.emb (ix2 r q) = ((cfg1.win 8).blk t).view.emb (ix2 r q) := by
    funext a; apply Fin.ext
    match a with
    | ⟨0, _⟩ => show win1_1.index t (0 : Fin 2) * 1024 + 1 * r.val = win1_8.index t (0 : Fin 2) * 1024 + 1 * r.val; omega
    | ⟨1, _⟩ => show win1_1.index t (1 : Fin 2) * 1024 + 1 * q.val = win1_8.index t (1 : Fin 2) * 1024 + 1 * q.val; omega
  have h2 : ((cfg1.win 2).blk t).view.emb (ix2 (0 : Fin 1) q) = ix2 (0 : Fin 1) ((((cfg1.win 8).blk t).view.emb (ix2 r q)) 1) := by
    funext a; apply Fin.ext
    match a with
    | ⟨0, _⟩ => show win1_2.index t (0 : Fin 2) * 1 + 1 * 0 = 0; omega
    | ⟨1, _⟩ => show win1_2.index t (1 : Fin 2) * 1024 + 1 * q.val = win1_8.index t (1 : Fin 2) * 1024 + 1 * q.val; omega
  have h3 : ((cfg1.win 3).blk t).view.emb (ix2 (0 : Fin 1) q) = ix2 (0 : Fin 1) ((((cfg1.win 8).blk t).view.emb (ix2 r q)) 1) := by
    funext a; apply Fin.ext
    match a with
    | ⟨0, _⟩ => show win1_3.index t (0 : Fin 2) * 1 + 1 * 0 = 0; omega
    | ⟨1, _⟩ => show win1_3.index t (1 : Fin 2) * 1024 + 1 * q.val = win1_8.index t (1 : Fin 2) * 1024 + 1 * q.val; omega
  have h6 : ((cfg1.win 6).blk t).view.emb (ix2 (0 : Fin 1) q) = ix2 (0 : Fin 1) ((((cfg1.win 8).blk t).view.emb (ix2 r q)) 1) := by
    funext a; apply Fin.ext
    match a with
    | ⟨0, _⟩ => show win1_6.index t (0 : Fin 2) * 1 + 1 * 0 = 0; omega
    | ⟨1, _⟩ => show win1_6.index t (1 : Fin 2) * 1024 + 1 * q.val = win1_8.index t (1 : Fin 2) * 1024 + 1 * q.val; omega
  rw [h0, h1, h2, h3, h6]
  rfl

/-- What point t writes back to the first result is block t of the affine map of the arrays as the region finds them. -/
theorem flushed8_eq (c : Dev nD) (t : Fin cfg1.N) :
    (dat1 (F := Ideal) V c).flushed 8 t = ((cfg1.win 8).blk t).view.read (Elt Ideal)
      (affine (V c main_arg0) (V c main_arg1) (V c main_v59) (V c main_v62) (V c main_v72)) := by
  show (cfg1.win 8).cut (grid1.coords t) ((dat1 V c).after 8 t) = _
  rw [after1_8]
  unfold out1_8
  rw [View.canon_unit_zero hz]
  simp only [View.ld_unit_zero (S := S1024x1024) hz, View.ld_unit_zero (S := S1x1024) hz]
  have hj : ∀ j' : S1024x1024.Idx, k1_pay1 (iblk1 (F := Ideal) V c 0 t) (iblk1 V c 1 t) (iblk1 V c 2 t) (iblk1 V c 3 t) (iblk1 V c 6 t) j'
      = affine (V c main_arg0) (V c main_arg1) (V c main_v59) (V c main_v62) (V c main_v72) (((cfg1.win 8).blk t).view.emb j') := by
    intro j'
    obtain ⟨r, q, rfl⟩ : ∃ r q, j' = ix2 r q := ⟨j' 0, j' 1, eq_ix2 j'⟩
    exact block8_apply (V c main_arg0) (V c main_arg1) (V c main_v59) (V c main_v62) (V c main_v72) t r q
  funext j
  exact hj j

/-- Block t of the second result at a block index (r, q), likewise. -/
theorem block9_apply (A0 A1 : S65536x1024.Idx → EReal) (G0 G1 B : S1x1024.Idx → EReal) (t : Fin cfg1.N) (r q : Fin 1024) :
    k1_pay2 (((cfg1.win 0).blk t).view.read (Elt Ideal) A0) (((cfg1.win 1).blk t).view.read (Elt Ideal) A1)
        (((cfg1.win 4).blk t).view.read (Elt Ideal) G0) (((cfg1.win 5).blk t).view.read (Elt Ideal) G1)
        (((cfg1.win 7).blk t).view.read (Elt Ideal) B) (ix2 r q)
      = affine A0 A1 G0 G1 B (((cfg1.win 9).blk t).view.emb (ix2 r q)) := by
  refine (pay2_apply _ _ _ _ _ r q).trans ?_
  obtain ⟨⟨a0, a1⟩, ⟨b0, b1⟩, -, ⟨o0, o1⟩, -, -, ⟨c40, c41⟩, ⟨c50, c51⟩, -, ⟨c70, c71⟩⟩ := idx_facts t
  show (G0 (((cfg1.win 4).blk t).view.emb (ix2 (0 : Fin 1) q)) * A0 (((cfg1.win 0).blk t).view.emb (ix2 r q))
        + G1 (((cfg1.win 5).blk t).view.emb (ix2 (0 : Fin 1) q)) * A1 (((cfg1.win 1).blk t).view.emb (ix2 r q)))
        + B (((cfg1.win 7).blk t).view.emb (ix2 (0 : Fin 1) q))
      = (G0 (ix2 (0 : Fin 1) ((((cfg1.win 9).blk t).view.emb (ix2 r q)) 1)) * A0 (((cfg1.win 9).blk t).view.emb (ix2 r q))
        + G1 (ix2 (0 : Fin 1) ((((cfg1.win 9).blk t).view.emb (ix2 r q)) 1)) * A1 (((cfg1.win 9).blk t).view.emb (ix2 r q)))
        + B (ix2 (0 : Fin 1) ((((cfg1.win 9).blk t).view.emb (ix2 r q)) 1))
  have hr : r.val < 1024 := r.isLt
  have hq : q.val < 1024 := q.isLt
  have h0 : ((cfg1.win 0).blk t).view.emb (ix2 r q) = ((cfg1.win 9).blk t).view.emb (ix2 r q) := by
    funext a; apply Fin.ext
    match a with
    | ⟨0, _⟩ => show win1_0.index t (0 : Fin 2) * 1024 + 1 * r.val = win1_9.index t (0 : Fin 2) * 1024 + 1 * r.val; omega
    | ⟨1, _⟩ => show win1_0.index t (1 : Fin 2) * 1024 + 1 * q.val = win1_9.index t (1 : Fin 2) * 1024 + 1 * q.val; omega
  have h1 : ((cfg1.win 1).blk t).view.emb (ix2 r q) = ((cfg1.win 9).blk t).view.emb (ix2 r q) := by
    funext a; apply Fin.ext
    match a with
    | ⟨0, _⟩ => show win1_1.index t (0 : Fin 2) * 1024 + 1 * r.val = win1_9.index t (0 : Fin 2) * 1024 + 1 * r.val; omega
    | ⟨1, _⟩ => show win1_1.index t (1 : Fin 2) * 1024 + 1 * q.val = win1_9.index t (1 : Fin 2) * 1024 + 1 * q.val; omega
  have h4 : ((cfg1.win 4).blk t).view.emb (ix2 (0 : Fin 1) q) = ix2 (0 : Fin 1) ((((cfg1.win 9).blk t).view.emb (ix2 r q)) 1) := by
    funext a; apply Fin.ext
    match a with
    | ⟨0, _⟩ => show win1_4.index t (0 : Fin 2) * 1 + 1 * 0 = 0; omega
    | ⟨1, _⟩ => show win1_4.index t (1 : Fin 2) * 1024 + 1 * q.val = win1_9.index t (1 : Fin 2) * 1024 + 1 * q.val; omega
  have h5 : ((cfg1.win 5).blk t).view.emb (ix2 (0 : Fin 1) q) = ix2 (0 : Fin 1) ((((cfg1.win 9).blk t).view.emb (ix2 r q)) 1) := by
    funext a; apply Fin.ext
    match a with
    | ⟨0, _⟩ => show win1_5.index t (0 : Fin 2) * 1 + 1 * 0 = 0; omega
    | ⟨1, _⟩ => show win1_5.index t (1 : Fin 2) * 1024 + 1 * q.val = win1_9.index t (1 : Fin 2) * 1024 + 1 * q.val; omega
  have h7 : ((cfg1.win 7).blk t).view.emb (ix2 (0 : Fin 1) q) = ix2 (0 : Fin 1) ((((cfg1.win 9).blk t).view.emb (ix2 r q)) 1) := by
    funext a; apply Fin.ext
    match a with
    | ⟨0, _⟩ => show win1_7.index t (0 : Fin 2) * 1 + 1 * 0 = 0; omega
    | ⟨1, _⟩ => show win1_7.index t (1 : Fin 2) * 1024 + 1 * q.val = win1_9.index t (1 : Fin 2) * 1024 + 1 * q.val; omega
  rw [h0, h1, h4, h5, h7]
  rfl

/-- What point t writes back to the second result is block t of the affine map of the arrays as the region finds them. -/
theorem flushed9_eq (c : Dev nD) (t : Fin cfg1.N) :
    (dat1 (F := Ideal) V c).flushed 9 t = ((cfg1.win 9).blk t).view.read (Elt Ideal)
      (affine (V c main_arg0) (V c main_arg1) (V c main_v65) (V c main_v68) (V c main_v76)) := by
  show (cfg1.win 9).cut (grid1.coords t) ((dat1 V c).after 9 t) = _
  rw [after1_9]
  unfold out1_9
  rw [View.canon_unit_zero hz]
  simp only [View.ld_unit_zero (S := S1024x1024) hz, View.ld_unit_zero (S := S1x1024) hz]
  have hj : ∀ j' : S1024x1024.Idx, k1_pay2 (iblk1 (F := Ideal) V c 0 t) (iblk1 V c 1 t) (iblk1 V c 4 t) (iblk1 V c 5 t) (iblk1 V c 7 t) j'
      = affine (V c main_arg0) (V c main_arg1) (V c main_v65) (V c main_v68) (V c main_v76) (((cfg1.win 9).blk t).view.emb j') := by
    intro j'
    obtain ⟨r, q, rfl⟩ : ∃ r q, j' = ix2 r q := ⟨j' 0, j' 1, eq_ix2 j'⟩
    exact block9_apply (V c main_arg0) (V c main_arg1) (V c main_v65) (V c main_v68) (V c main_v76) t r q
  funext j
  exact hj j

/-- An index of the array is in point t's block of the first result iff each coordinate is in the block's range. -/
theorem mem_blk8 (t : Fin cfg1.N) (i : S65536x1024.Idx) :
    i ∈ ((cfg1.win 8).blk t).view.set ↔ ∀ a : Fin 2, win1_8.index t a * S1024x1024.size a ≤ (i a).val
      ∧ (i a).val < win1_8.index t a * S1024x1024.size a + S1024x1024.size a := by
  show i ∈ ((View.whole main_v77_0).slice (win1_8.rect t)).set ↔ _
  rw [View.set_slice_whole, Rect.mem_set_unit]
  exact Iff.rfl

/-- The same for the second result. -/
theorem mem_blk9 (t : Fin cfg1.N) (i : S65536x1024.Idx) :
    i ∈ ((cfg1.win 9).blk t).view.set ↔ ∀ a : Fin 2, win1_9.index t a * S1024x1024.size a ≤ (i a).val
      ∧ (i a).val < win1_9.index t a * S1024x1024.size a + S1024x1024.size a := by
  show i ∈ ((View.whole main_v77_1).slice (win1_9.rect t)).set ↔ _
  rw [View.set_slice_whole, Rect.mem_set_unit]
  exact Iff.rfl

/-- The 64 blocks of 1024 rows tile the 65536 rows: row r is in the block of point r / 1024. -/
theorem cover8 (i : S65536x1024.Idx) :
    ∃ t : Fin cfg1.N, (cfg1.win 8).flush t = true ∧ i ∈ ((cfg1.win 8).blk t).view.set := by
  have hi0 : (i 0).val < 65536 := (i 0).isLt
  have hi1 : (i 1).val < 1024 := (i 1).isLt
  have hN : cfg1.N = 64 := N_1
  have ht : (i 0).val / 1024 < cfg1.N := by omega
  obtain ⟨-, -, ⟨o0, o1⟩, -⟩ := idx_facts ⟨(i 0).val / 1024, ht⟩
  refine ⟨⟨(i 0).val / 1024, ht⟩, flush1_8 _, ?_⟩
  rw [mem_blk8]
  intro a
  match a with
  | ⟨0, _⟩ =>
    show win1_8.index ⟨(i 0).val / 1024, ht⟩ (0 : Fin 2) * 1024 ≤ (i 0).val
      ∧ (i 0).val < win1_8.index ⟨(i 0).val / 1024, ht⟩ (0 : Fin 2) * 1024 + 1024
    rw [o0]; show (i 0).val / 1024 * 1024 ≤ (i 0).val ∧ (i 0).val < (i 0).val / 1024 * 1024 + 1024; omega
  | ⟨1, _⟩ =>
    show win1_8.index ⟨(i 0).val / 1024, ht⟩ (1 : Fin 2) * 1024 ≤ (i 1).val
      ∧ (i 1).val < win1_8.index ⟨(i 0).val / 1024, ht⟩ (1 : Fin 2) * 1024 + 1024
    omega

/-- The same for the second result. -/
theorem cover9 (i : S65536x1024.Idx) :
    ∃ t : Fin cfg1.N, (cfg1.win 9).flush t = true ∧ i ∈ ((cfg1.win 9).blk t).view.set := by
  have hi0 : (i 0).val < 65536 := (i 0).isLt
  have hi1 : (i 1).val < 1024 := (i 1).isLt
  have hN : cfg1.N = 64 := N_1
  have ht : (i 0).val / 1024 < cfg1.N := by omega
  obtain ⟨-, -, -, ⟨o0, o1⟩, -⟩ := idx_facts ⟨(i 0).val / 1024, ht⟩
  refine ⟨⟨(i 0).val / 1024, ht⟩, flush1_9 _, ?_⟩
  rw [mem_blk9]
  intro a
  match a with
  | ⟨0, _⟩ =>
    show win1_9.index ⟨(i 0).val / 1024, ht⟩ (0 : Fin 2) * 1024 ≤ (i 0).val
      ∧ (i 0).val < win1_9.index ⟨(i 0).val / 1024, ht⟩ (0 : Fin 2) * 1024 + 1024
    rw [o0]; show (i 0).val / 1024 * 1024 ≤ (i 0).val ∧ (i 0).val < (i 0).val / 1024 * 1024 + 1024; omega
  | ⟨1, _⟩ =>
    show win1_9.index ⟨(i 0).val / 1024, ht⟩ (1 : Fin 2) * 1024 ≤ (i 1).val
      ∧ (i 1).val < win1_9.index ⟨(i 0).val / 1024, ht⟩ (1 : Fin 2) * 1024 + 1024
    omega

/-- The first result after the region: the affine map, with the first pair of coefficient rows and the first shift,
    of the two sample arrays, at every index. -/
theorem final8 (c : Dev nD) : (dat1 (F := Ideal) V c).arrAt 8 cfg1.N
    = affine (V c main_arg0) (V c main_arg1) (V c main_v59) (V c main_v62) (V c main_v72) :=
  (dat1 V c).arrAt_eq_of_cover 8 _ (fun t _ => flushed8_eq V c t) cover8

/-- The second result after the region: the affine map with the second pair of rows and the second shift. -/
theorem final9 (c : Dev nD) : (dat1 (F := Ideal) V c).arrAt 9 cfg1.N
    = affine (V c main_arg0) (V c main_arg1) (V c main_v65) (V c main_v68) (V c main_v76) :=
  (dat1 V c).arrAt_eq_of_cover 9 _ (fun t _ => flushed9_eq V c t) cover9

/-- The first result at sample p of feature q, over typed names for the arrays the region finds. -/
theorem apply_real_of (c : Dev nD) (p : Fin 65536) (q : Fin 1024)
    (A0 A1 : S65536x1024.Idx → EReal) (G0 G1 B : S1x1024.Idx → EReal)
    (hA0 : V c main_arg0 = A0) (hA1 : V c main_arg1 = A1)
    (hG0 : V c main_v59 = G0) (hG1 : V c main_v62 = G1) (hB : V c main_v72 = B) :
    ((dat1 (F := Ideal) V c).arrAt 8 cfg1.N : S65536x1024.Idx → EReal) (ix2 p q)
      = (G0 (ix2 (0 : Fin 1) q) * A0 (ix2 p q) + G1 (ix2 (0 : Fin 1) q) * A1 (ix2 p q)) + B (ix2 (0 : Fin 1) q) := by
  subst hA0 hA1 hG0 hG1 hB
  exact congrFun (final8 V c) (ix2 p q)

/-- The second result at sample p of feature q, over typed names for the arrays the region finds. -/
theorem apply_imag_of (c : Dev nD) (p : Fin 65536) (q : Fin 1024)
    (A0 A1 : S65536x1024.Idx → EReal) (G0 G1 B : S1x1024.Idx → EReal)
    (hA0 : V c main_arg0 = A0) (hA1 : V c main_arg1 = A1)
    (hG0 : V c main_v65 = G0) (hG1 : V c main_v68 = G1) (hB : V c main_v76 = B) :
    ((dat1 (F := Ideal) V c).arrAt 9 cfg1.N : S65536x1024.Idx → EReal) (ix2 p q)
      = (G0 (ix2 (0 : Fin 1) q) * A0 (ix2 p q) + G1 (ix2 (0 : Fin 1) q) * A1 (ix2 p q)) + B (ix2 (0 : Fin 1) q) := by
  subst hA0 hA1 hG0 hG1 hB
  exact congrFun (final9 V c) (ix2 p q)

/-- The first result at sample p of feature q, in the arrays the region finds themselves. -/
theorem apply_real (c : Dev nD) (p : Fin 65536) (q : Fin 1024) :
    type_of% (apply_real_of V c p q (V c main_arg0) (V c main_arg1) (V c main_v59) (V c main_v62) (V c main_v72)
      rfl rfl rfl rfl rfl) :=
  apply_real_of V c p q _ _ _ _ _ rfl rfl rfl rfl rfl

/-- The second result at sample p of feature q, in the arrays the region finds themselves. -/
theorem apply_imag (c : Dev nD) (p : Fin 65536) (q : Fin 1024) :
    type_of% (apply_imag_of V c p q (V c main_arg0) (V c main_arg1) (V c main_v65) (V c main_v68) (V c main_v76)
      rfl rfl rfl rfl rfl) :=
  apply_imag_of V c p q _ _ _ _ _ rfl rfl rfl rfl rfl

end Cert.KernelIdeal.KApply

end
-- ==== Proof.KValue.lean ====
/-
  The idealized kernel's two results, entry by entry, in raw-moment form.

  Entry (p, q) of the first result is  (A_rr·x + A_ri·y) + b_r  with x, y the real and imaginary inputs at (p, q) and the
  coefficients computed by the host stretch from the column totals Σr, Σi, Σr², Σi², Σr·i of column q; each total is the
  sum of rows 0 and 8 of a partial-sum array, the two cores' 32-block totals, which regroup to the sum over all 65536
  samples of the column.  By definition of the coefficients this is `rawR` of the five totals; likewise `rawI`.
-/
import proofs.«158268_j23862838297129_2_alg».proof.Proof.KRun
import proofs.«158268_j23862838297129_2_alg».proof.Proof.KStatsAcc
import proofs.«158268_j23862838297129_2_alg».proof.Proof.KHost
import proofs.«158268_j23862838297129_2_alg».proof.Proof.KApply

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.Whiten Cert.SumCores Cert.KernelIdeal.KStats Cert.KernelIdeal.KHost Cert.KernelIdeal.KApply

variable (m : (ℓ : Loc nD τ sig) → Buf (Elt Ideal) ℓ) (ρ : Dev nD → PrngReg) (c : Dev nD)

/-- The seven argument arrays as launched, as arrays of extended reals. -/
abbrev aR : S65536x1024.Idx → EReal := m ((c.tc : Thread nD τ).loc main_arg0)
abbrev aI : S65536x1024.Idx → EReal := m ((c.tc : Thread nD τ).loc main_arg1)
abbrev gRR : S1024.Idx → EReal := m ((c.tc : Thread nD τ).loc main_arg2)
abbrev gRI : S1024.Idx → EReal := m ((c.tc : Thread nD τ).loc main_arg3)
abbrev gII : S1024.Idx → EReal := m ((c.tc : Thread nD τ).loc main_arg4)
abbrev bRe : S1024.Idx → EReal := m ((c.tc : Thread nD τ).loc main_arg5)
abbrev bIm : S1024.Idx → EReal := m ((c.tc : Thread nD τ).loc main_arg6)

/-- The five column totals of column q. -/
abbrev totR (q : Fin 1024) : EReal := ∑ n : Fin 65536, aR m c (ix2 n q)
abbrev totI (q : Fin 1024) : EReal := ∑ n : Fin 65536, aI m c (ix2 n q)
abbrev totRR (q : Fin 1024) : EReal := ∑ n : Fin 65536, aR m c (ix2 n q) * aR m c (ix2 n q)
abbrev totII (q : Fin 1024) : EReal := ∑ n : Fin 65536, aI m c (ix2 n q) * aI m c (ix2 n q)
abbrev totRI (q : Fin 1024) : EReal := ∑ n : Fin 65536, aR m c (ix2 n q) * aI m c (ix2 n q)

/-- Rows 0 and 8 of a partial-sum array add up to the column's total: two cores, 32 blocks each, 1024 rows a block. -/
theorem two_rows (g : ℕ → Fin 1024 → EReal) (G : Fin 65536 → EReal) (q : Fin 1024)
    (hg : ∀ n, g n q = ∑ r : Fin 1024, ext0 G (n * 1024 + r.val)) :
    (∑ s ∈ Finset.range 32, g (32 * ((0 : Fin 16).val / 8) + s) q) + (∑ s ∈ Finset.range 32, g (32 * ((8 : Fin 16).val / 8) + s) q)
      = ∑ n : Fin 65536, G n := by
  rw [← sum_two_cores G]
  refine congrArg₂ (· + ·) (Finset.sum_congr rfl fun s _ => ?_) (Finset.sum_congr rfl fun s _ => ?_)
  · rw [hg]; rfl
  · rw [hg]; rfl

/-- A partial-sum array whose rows 0 and 8 hold the two cores' 32-block totals has the column's total as their sum. -/
theorem colSum_of (v : Part) (g : ℕ → Fin 1024 → EReal) (G : Fin 65536 → EReal) (q : Fin 1024)
    (h0 : v (ix2 (0 : Fin 16) q) = ∑ s ∈ Finset.range 32, g (32 * ((0 : Fin 16).val / 8) + s) q)
    (h8 : v (ix2 (8 : Fin 16) q) = ∑ s ∈ Finset.range 32, g (32 * ((8 : Fin 16).val / 8) + s) q)
    (hg : ∀ n, g n q = ∑ r : Fin 1024, ext0 G (n * 1024 + r.val)) : colSum v q = ∑ n : Fin 65536, G n := by
  show v (ix2 (0 : Fin 16) q) + v (ix2 (8 : Fin 16) q) = _
  rw [h0, h8]
  exact two_rows g G q hg

theorem sumR (q : Fin 1024) : colSum (W1 m ρ c (Proc.devRef .tc main_v0_0)) q = totR m c q :=
  colSum_of _ (addR (V0 m ρ) c) _ q
    ((congrFun (W1_arr m ρ c 2) (ix2 (0 : Fin 16) q)).trans (stats2 (V0 m ρ) c 0 q))
    ((congrFun (W1_arr m ρ c 2) (ix2 (8 : Fin 16) q)).trans (stats2 (V0 m ρ) c 8 q)) (fun n => rfl)

theorem sumI (q : Fin 1024) : colSum (W1 m ρ c (Proc.devRef .tc main_v0_1)) q = totI m c q :=
  colSum_of _ (addI (V0 m ρ) c) _ q
    ((congrFun (W1_arr m ρ c 3) (ix2 (0 : Fin 16) q)).trans (stats3 (V0 m ρ) c 0 q))
    ((congrFun (W1_arr m ρ c 3) (ix2 (8 : Fin 16) q)).trans (stats3 (V0 m ρ) c 8 q)) (fun n => rfl)

theorem sumRR (q : Fin 1024) : colSum (W1 m ρ c (Proc.devRef .tc main_v0_2)) q = totRR m c q :=
  colSum_of _ (addRR (V0 m ρ) c) _ q
    ((congrFun (W1_arr m ρ c 4) (ix2 (0 : Fin 16) q)).trans (stats4 (V0 m ρ) c 0 q))
    ((congrFun (W1_arr m ρ c 4) (ix2 (8 : Fin 16) q)).trans (stats4 (V0 m ρ) c 8 q)) (fun n => rfl)

theorem sumII (q : Fin 1024) : colSum (W1 m ρ c (Proc.devRef .tc main_v0_3)) q = totII m c q :=
  colSum_of _ (addII (V0 m ρ) c) _ q
    ((congrFun (W1_arr m ρ c 5) (ix2 (0 : Fin 16) q)).trans (stats5 (V0 m ρ) c 0 q))
    ((congrFun (W1_arr m ρ c 5) (ix2 (8 : Fin 16) q)).trans (stats5 (V0 m ρ) c 8 q)) (fun n => rfl)

theorem sumRI (q : Fin 1024) : colSum (W1 m ρ c (Proc.devRef .tc main_v0_4)) q = totRI m c q :=
  colSum_of _ (addRI (V0 m ρ) c) _ q
    ((congrFun (W1_arr m ρ c 6) (ix2 (0 : Fin 16) q)).trans (stats6 (V0 m ρ) c 0 q))
    ((congrFun (W1_arr m ρ c 6) (ix2 (8 : Fin 16) q)).trans (stats6 (V0 m ρ) c 8 q)) (fun n => rfl)

/-- The scale and shift parameters reach the host stretch as launched. -/
theorem par2 : (W1 m ρ c (Proc.devRef .tc main_arg2) : Par) = gRR m c := W1_of_ne m ρ c main_arg2 (by decide)
theorem par3 : (W1 m ρ c (Proc.devRef .tc main_arg3) : Par) = gRI m c := W1_of_ne m ρ c main_arg3 (by decide)
theorem par4 : (W1 m ρ c (Proc.devRef .tc main_arg4) : Par) = gII m c := W1_of_ne m ρ c main_arg4 (by decide)
theorem par5 : (W1 m ρ c (Proc.devRef .tc main_arg5) : Par) = bRe m c := W1_of_ne m ρ c main_arg5 (by decide)
theorem par6 : (W1 m ρ c (Proc.devRef .tc main_arg6) : Par) = bIm m c := W1_of_ne m ρ c main_arg6 (by decide)

/-- The two inputs reach the apply pass as launched. -/
theorem in0 : V2 m ρ c main_arg0 = aR m c :=
  ((W3_arr m ρ c 0).trans (((dat1 (V2 m ρ) c).arrAt_in 0 rfl _).trans (A_eq1 (V2 m ρ) c 0))).symm.trans (W3_main_arg0 m ρ c)
theorem in1 : V2 m ρ c main_arg1 = aI m c :=
  ((W3_arr m ρ c 1).trans (((dat1 (V2 m ρ) c).arrAt_in 1 rfl _).trans (A_eq1 (V2 m ρ) c 1))).symm.trans (W3_main_arg1 m ρ c)

/-- Entry (p, q) of the first result: the raw-moment form of the real part. -/
theorem kernel_real (p : Fin 65536) (q : Fin 1024) :
    (W3 m ρ c (Proc.devRef .tc main_v77_0) : S65536x1024.Idx → EReal) (ix2 p q)
      = rawR (totR m c q) (totI m c q) (totRR m c q) (totII m c q) (totRI m c q)
          (gRR m c (ix1 q)) (gRI m c (ix1 q)) (bRe m c (ix1 q)) (aR m c (ix2 p q)) (aI m c (ix2 p q)) := by
  show (W3 m ρ c (Proc.devRef .tc (Pipeline.arrRef spec1 8)) : S65536x1024.Idx → EReal) (ix2 p q) = _
  rw [W3_arr m ρ c 8]
  refine (apply_real_of (V2 m ρ) c p q (aR m c) (aI m c)
    (StableHlo.after (hostOps1 (F := Ideal)) (W1 m ρ c) (Proc.devRef .tc main_v59) : Row)
    (StableHlo.after (hostOps1 (F := Ideal)) (W1 m ρ c) (Proc.devRef .tc main_v62) : Row)
    (StableHlo.after (hostOps1 (F := Ideal)) (W1 m ρ c) (Proc.devRef .tc main_v72) : Row)
    (in0 m ρ c) (in1 m ρ c) rfl rfl rfl).trans ?_
  rw [host_aRR, host_aRI, host_bR, sumR, sumI, sumRR, sumII, sumRI, par2, par3, par5]
  exact affine_eq_rawR _ _ _ _ _ _ _ _ _ _

/-- Entry (p, q) of the second result: the raw-moment form of the imaginary part. -/
theorem kernel_imag (p : Fin 65536) (q : Fin 1024) :
    (W3 m ρ c (Proc.devRef .tc main_v77_1) : S65536x1024.Idx → EReal) (ix2 p q)
      = rawI (totR m c q) (totI m c q) (totRR m c q) (totII m c q) (totRI m c q)
          (gRI m c (ix1 q)) (gII m c (ix1 q)) (bIm m c (ix1 q)) (aR m c (ix2 p q)) (aI m c (ix2 p q)) := by
  show (W3 m ρ c (Proc.devRef .tc (Pipeline.arrRef spec1 9)) : S65536x1024.Idx → EReal) (ix2 p q) = _
  rw [W3_arr m ρ c 9]
  refine (apply_imag_of (V2 m ρ) c p q (aR m c) (aI m c)
    (StableHlo.after (hostOps1 (F := Ideal)) (W1 m ρ c) (Proc.devRef .tc main_v65) : Row)
    (StableHlo.after (hostOps1 (F := Ideal)) (W1 m ρ c) (Proc.devRef .tc main_v68) : Row)
    (StableHlo.after (hostOps1 (F := Ideal)) (W1 m ρ c) (Proc.devRef .tc main_v76) : Row)
    (in0 m ρ c) (in1 m ρ c) rfl rfl rfl).trans ?_
  rw [host_aIR, host_aII, host_bI, sumR, sumI, sumRR, sumII, sumRI, par3, par4, par6]
  exact affine_eq_rawI _ _ _ _ _ _ _ _ _ _

end Cert.KernelIdeal.KValue

end
-- ==== Proof.RefSpec.lean ====
/-
  The reference program read as the centred form of the complex batch normalisation.

  The reference computes, per feature column q, the two means, the centred samples, the three
  entries of the regularised covariance as means of products of deviations, the closed-form inverse
  square root of that 2×2 matrix, and then whitens, scales and shifts each centred sample.  Read at an
  output index (p, q) at the ideal values, each of its stages is, term for term, one of the named
  quantities of the centred form: the mean, a deviation, a variance or covariance entry, the root of the
  determinant, the common denominator, an entry of the inverse square root, a whitened coordinate, and
  finally the real or the imaginary part of the result.  No finiteness is used: only the definitions, and
  that the sums start from the word of zero.
-/
import proofs.«158268_j23862838297129_2_alg».proof.Proof.Gen.ReferenceIdeal.Read
import proofs.«158268_j23862838297129_2_alg».proof.Proof.Spec
import Idealize.ShloMosaic.Lib.ValueIdx
import Idealize.ShloMosaic.PureOps.Ideal.Laws

noncomputable section

open scoped BigOperators

namespace Cert.ReferenceIdeal.RefSpec

open Cert.Whiten Idealize.ShloMosaic Idealize.ShloMosaic.ValueIdx Cert.ReferenceIdeal Cert.ReferenceIdeal.Read

/-- A [65536, 1024] array of extended reals. -/
abbrev Big : Type := (⟨S65536x1024, .f32⟩ : BufTy).Contents (Elt Ideal)
/-- A [1024] array of extended reals. -/
abbrev Row : Type := (⟨S1024, .f32⟩ : BufTy).Contents (Elt Ideal)

/-- Column q of an array: its 65536 samples. -/
abbrev col (x : Big) (q : Fin 1024) : Fin 65536 → EReal := fun n => x (ix2 n q)

/-! ### The three words (the sample count, the regulariser, two), broadcast over the features -/

theorem v1_eq (i : S1024.Idx) : val_main_v1 (F := Ideal) i = nW := by
  rw [val_main_v1_apply, val_main_cst_0_apply]; rfl
theorem v4_eq (i : S1024.Idx) : val_main_v4 (F := Ideal) i = nW := by
  rw [val_main_v4_apply, val_main_cst_2_apply]; rfl
theorem v14_eq (i : S1024.Idx) : val_main_v14 (F := Ideal) i = nW := by
  rw [val_main_v14_apply, val_main_cst_4_apply]; rfl
theorem v20_eq (i : S1024.Idx) : val_main_v20 (F := Ideal) i = nW := by
  rw [val_main_v20_apply, val_main_cst_7_apply]; rfl
theorem v26_eq (i : S1024.Idx) : val_main_v26 (F := Ideal) i = nW := by
  rw [val_main_v26_apply, val_main_cst_10_apply]; rfl
theorem v16_eq (i : S1024.Idx) : val_main_v16 (F := Ideal) i = epsW := by
  rw [val_main_v16_apply, val_main_cst_5_apply]; rfl
theorem v22_eq (i : S1024.Idx) : val_main_v22 (F := Ideal) i = epsW := by
  rw [val_main_v22_apply, val_main_cst_8_apply]; rfl
theorem v33_eq (i : S1024.Idx) : val_main_v33 (F := Ideal) i = twoW := by
  rw [val_main_v33_apply, val_main_cst_11_apply]; rfl

/-! ### Index bookkeeping: the k-th summand of feature q's sum sits at (k, q) -/

theorem idx_v0 (q : Fin 1024) (k : Fin 65536) : idx_main_v0 (ix1 q) k = ix2 k q := by
  funext a; match a with | ⟨0, _⟩ => rfl | ⟨1, _⟩ => rfl
theorem idx_v3 (q : Fin 1024) (k : Fin 65536) : idx_main_v3 (ix1 q) k = ix2 k q := by
  funext a; match a with | ⟨0, _⟩ => rfl | ⟨1, _⟩ => rfl
theorem idx_v13 (q : Fin 1024) (k : Fin 65536) : idx_main_v13 (ix1 q) k = ix2 k q := by
  funext a; match a with | ⟨0, _⟩ => rfl | ⟨1, _⟩ => rfl
theorem idx_v19 (q : Fin 1024) (k : Fin 65536) : idx_main_v19 (ix1 q) k = ix2 k q := by
  funext a; match a with | ⟨0, _⟩ => rfl | ⟨1, _⟩ => rfl
theorem idx_v25 (q : Fin 1024) (k : Fin 65536) : idx_main_v25 (ix1 q) k = ix2 k q := by
  funext a; match a with | ⟨0, _⟩ => rfl | ⟨1, _⟩ => rfl

/-! ### The means and the centred samples -/

theorem v2_eq (x0 : Big) (q : Fin 1024) :
    val_main_v2 (F := Ideal) x0 (ix1 q) = mean (col x0 q) := by
  rw [val_main_v2_apply, val_main_v0_apply, val_main_cst_apply, v1_eq]
  rw [Ideal.ofBits_def, Ideal.ofBits_zero_f32, zero_add, Ideal.hostDivf_def]
  unfold mean
  refine congrArg (fun s => Ideal.div s nW) (Finset.sum_congr rfl fun k _ => ?_)
  rw [idx_v0]

theorem v5_eq (x1 : Big) (q : Fin 1024) :
    val_main_v5 (F := Ideal) x1 (ix1 q) = mean (col x1 q) := by
  rw [val_main_v5_apply, val_main_v3_apply, val_main_cst_1_apply, v4_eq]
  rw [Ideal.ofBits_def, Ideal.ofBits_zero_f32, zero_add, Ideal.hostDivf_def]
  unfold mean
  refine congrArg (fun s => Ideal.div s nW) (Finset.sum_congr rfl fun k _ => ?_)
  rw [idx_v3]

theorem v7_eq (x0 : Big) (n : Fin 65536) (q : Fin 1024) :
    val_main_v7 (F := Ideal) x0 (ix2 n q) = val_main_v2 (F := Ideal) x0 (ix1 q) := by
  rw [val_main_v7_apply, val_main_v6_apply]
  exact congrArg _ (funext fun a => match a with | ⟨0, _⟩ => rfl)
theorem v10_eq (x1 : Big) (n : Fin 65536) (q : Fin 1024) :
    val_main_v10 (F := Ideal) x1 (ix2 n q) = val_main_v5 (F := Ideal) x1 (ix1 q) := by
  rw [val_main_v10_apply, val_main_v9_apply]
  exact congrArg _ (funext fun a => match a with | ⟨0, _⟩ => rfl)

theorem v8_eq (x0 : Big) (n : Fin 65536) (q : Fin 1024) :
    val_main_v8 (F := Ideal) x0 (ix2 n q) = x0 (ix2 n q) - mean (col x0 q) := by
  rw [val_main_v8_apply, v7_eq, v2_eq, Ideal.subf_def]

theorem v11_eq (x1 : Big) (n : Fin 65536) (q : Fin 1024) :
    val_main_v11 (F := Ideal) x1 (ix2 n q) = x1 (ix2 n q) - mean (col x1 q) := by
  rw [val_main_v11_apply, v10_eq, v5_eq, Ideal.subf_def]

/-! ### The covariance entries: means of products of deviations -/

theorem v17_eq (x0 : Big) (q : Fin 1024) :
    val_main_v17 (F := Ideal) x0 (ix1 q) = cenVar (col x0 q) := by
  rw [val_main_v17_apply, val_main_v15_apply, val_main_v13_apply, val_main_cst_3_apply, v14_eq, v16_eq]
  rw [Ideal.ofBits_def, Ideal.ofBits_zero_f32, zero_add, Ideal.hostDivf_def, Ideal.addf_def]
  unfold cenVar
  refine congrArg (fun s => Ideal.div s nW + epsW) (Finset.sum_congr rfl fun k _ => ?_)
  rw [idx_v13, val_main_v12_apply, v8_eq, Ideal.mulf_def]

theorem v23_eq (x1 : Big) (q : Fin 1024) :
    val_main_v23 (F := Ideal) x1 (ix1 q) = cenVar (col x1 q) := by
  rw [val_main_v23_apply, val_main_v21_apply, val_main_v19_apply, val_main_cst_6_apply, v20_eq, v22_eq]
  rw [Ideal.ofBits_def, Ideal.ofBits_zero_f32, zero_add, Ideal.hostDivf_def, Ideal.addf_def]
  unfold cenVar
  refine congrArg (fun s => Ideal.div s nW + epsW) (Finset.sum_congr rfl fun k _ => ?_)
  rw [idx_v19, val_main_v18_apply, v11_eq, Ideal.mulf_def]

theorem v27_eq (x0 x1 : Big) (q : Fin 1024) :
    val_main_v27 (F := Ideal) x0 x1 (ix1 q) = cenCov (col x0 q) (col x1 q) := by
  rw [val_main_v27_apply, val_main_v25_apply, val_main_cst_9_apply, v26_eq]
  rw [Ideal.ofBits_def, Ideal.ofBits_zero_f32, zero_add, Ideal.hostDivf_def]
  unfold cenCov
  refine congrArg (fun s => Ideal.div s nW) (Finset.sum_congr rfl fun k _ => ?_)
  rw [idx_v25, val_main_v24_apply, v8_eq, v11_eq, Ideal.mulf_def]

/-! ### The inverse square root of the covariance -/

theorem v31_eq (x0 x1 : Big) (q : Fin 1024) :
    val_main_v31 (F := Ideal) x0 x1 (ix1 q)
      = detRoot (cenVar (col x0 q)) (cenVar (col x1 q)) (cenCov (col x0 q) (col x1 q)) := by
  rw [val_main_v31_apply, val_main_v30_apply, val_main_v28_apply, val_main_v29_apply, v17_eq, v23_eq, v27_eq]
  rfl

theorem v37_eq (x0 x1 : Big) (q : Fin 1024) :
    val_main_v37 (F := Ideal) x0 x1 (ix1 q)
      = denom (cenVar (col x0 q)) (cenVar (col x1 q)) (cenCov (col x0 q) (col x1 q)) := by
  rw [val_main_v37_apply, val_main_v36_apply, val_main_v35_apply, val_main_v32_apply, val_main_v34_apply,
    v33_eq, v31_eq, v17_eq, v23_eq]
  rfl

theorem v39_eq (x0 x1 : Big) (q : Fin 1024) :
    val_main_v39 (F := Ideal) x0 x1 (ix1 q)
      = wRR (cenVar (col x0 q)) (cenVar (col x1 q)) (cenCov (col x0 q) (col x1 q)) := by
  rw [val_main_v39_apply, val_main_v38_apply, v23_eq, v31_eq, v37_eq]
  rfl

theorem v41_eq (x0 x1 : Big) (q : Fin 1024) :
    val_main_v41 (F := Ideal) x0 x1 (ix1 q)
      = wII (cenVar (col x0 q)) (cenVar (col x1 q)) (cenCov (col x0 q) (col x1 q)) := by
  rw [val_main_v41_apply, val_main_v40_apply, v17_eq, v31_eq, v37_eq]
  rfl

theorem v43_eq (x0 x1 : Big) (q : Fin 1024) :
    val_main_v43 (F := Ideal) x0 x1 (ix1 q)
      = wRI (cenVar (col x0 q)) (cenVar (col x1 q)) (cenCov (col x0 q) (col x1 q)) := by
  rw [val_main_v43_apply, val_main_v42_apply, v27_eq, v37_eq]
  rfl

/-! ### Rows broadcast over the samples -/

theorem v45_eq (x0 x1 : Big) (n : Fin 65536) (q : Fin 1024) :
    val_main_v45 (F := Ideal) x0 x1 (ix2 n q) = val_main_v39 (F := Ideal) x0 x1 (ix1 q) := by
  rw [val_main_v45_apply, val_main_v44_apply]
  exact congrArg _ (funext fun a => match a with | ⟨0, _⟩ => rfl)
theorem v48_eq (x0 x1 : Big) (n : Fin 65536) (q : Fin 1024) :
    val_main_v48 (F := Ideal) x0 x1 (ix2 n q) = val_main_v43 (F := Ideal) x0 x1 (ix1 q) := by
  rw [val_main_v48_apply, val_main_v47_apply]
  exact congrArg _ (funext fun a => match a with | ⟨0, _⟩ => rfl)
theorem v52_eq (x0 x1 : Big) (n : Fin 65536) (q : Fin 1024) :
    val_main_v52 (F := Ideal) x0 x1 (ix2 n q) = val_main_v43 (F := Ideal) x0 x1 (ix1 q) := by
  rw [val_main_v52_apply, val_main_v51_apply]
  exact congrArg _ (funext fun a => match a with | ⟨0, _⟩ => rfl)
theorem v55_eq (x0 x1 : Big) (n : Fin 65536) (q : Fin 1024) :
    val_main_v55 (F := Ideal) x0 x1 (ix2 n q) = val_main_v41 (F := Ideal) x0 x1 (ix1 q) := by
  rw [val_main_v55_apply, val_main_v54_apply]
  exact congrArg _ (funext fun a => match a with | ⟨0, _⟩ => rfl)
theorem v59_eq (x2 : Row) (n : Fin 65536) (q : Fin 1024) :
    val_main_v59 (F := Ideal) x2 (ix2 n q) = x2 (ix1 q) := by
  rw [val_main_v59_apply, val_main_v58_apply]
  exact congrArg _ (funext fun a => match a with | ⟨0, _⟩ => rfl)
theorem v62_eq (x3 : Row) (n : Fin 65536) (q : Fin 1024) :
    val_main_v62 (F := Ideal) x3 (ix2 n q) = x3 (ix1 q) := by
  rw [val_main_v62_apply, val_main_v61_apply]
  exact congrArg _ (funext fun a => match a with | ⟨0, _⟩ => rfl)
theorem v66_eq (x5 : Row) (n : Fin 65536) (q : Fin 1024) :
    val_main_v66 (F := Ideal) x5 (ix2 n q) = x5 (ix1 q) := by
  rw [val_main_v66_apply, val_main_v65_apply]
  exact congrArg _ (funext fun a => match a with | ⟨0, _⟩ => rfl)
theorem v69_eq (x3 : Row) (n : Fin 65536) (q : Fin 1024) :
    val_main_v69 (F := Ideal) x3 (ix2 n q) = x3 (ix1 q) := by
  rw [val_main_v69_apply, val_main_v68_apply]
  exact congrArg _ (funext fun a => match a with | ⟨0, _⟩ => rfl)
theorem v72_eq (x4 : Row) (n : Fin 65536) (q : Fin 1024) :
    val_main_v72 (F := Ideal) x4 (ix2 n q) = x4 (ix1 q) := by
  rw [val_main_v72_apply, val_main_v71_apply]
  exact congrArg _ (funext fun a => match a with | ⟨0, _⟩ => rfl)
theorem v76_eq (x6 : Row) (n : Fin 65536) (q : Fin 1024) :
    val_main_v76 (F := Ideal) x6 (ix2 n q) = x6 (ix1 q) := by
  rw [val_main_v76_apply, val_main_v75_apply]
  exact congrArg _ (funext fun a => match a with | ⟨0, _⟩ => rfl)

/-! ### The whitened pair -/

theorem v50_eq (x0 x1 : Big) (n : Fin 65536) (q : Fin 1024) :
    val_main_v50 (F := Ideal) x0 x1 (ix2 n q)
      = wRR (cenVar (col x0 q)) (cenVar (col x1 q)) (cenCov (col x0 q) (col x1 q)) * (x0 (ix2 n q) - mean (col x0 q))
        + wRI (cenVar (col x0 q)) (cenVar (col x1 q)) (cenCov (col x0 q) (col x1 q)) * (x1 (ix2 n q) - mean (col x1 q)) := by
  rw [val_main_v50_apply, val_main_v46_apply, val_main_v49_apply, v45_eq, v48_eq, v39_eq, v43_eq, v8_eq, v11_eq,
    Ideal.addf_def, Ideal.mulf_def, Ideal.mulf_def]

theorem v57_eq (x0 x1 : Big) (n : Fin 65536) (q : Fin 1024) :
    val_main_v57 (F := Ideal) x0 x1 (ix2 n q)
      = wRI (cenVar (col x0 q)) (cenVar (col x1 q)) (cenCov (col x0 q) (col x1 q)) * (x0 (ix2 n q) - mean (col x0 q))
        + wII (cenVar (col x0 q)) (cenVar (col x1 q)) (cenCov (col x0 q) (col x1 q)) * (x1 (ix2 n q) - mean (col x1 q)) := by
  rw [val_main_v57_apply, val_main_v53_apply, val_main_v56_apply, v52_eq, v55_eq, v43_eq, v41_eq, v8_eq, v11_eq,
    Ideal.addf_def, Ideal.mulf_def, Ideal.mulf_def]

/-! ### The two results -/

/-- The reference's real part at (p, q) is the centred form's, of column q and the sample at p. -/
theorem ref_real (x0 x1 : (⟨S65536x1024, .f32⟩ : BufTy).Contents (Elt Ideal))
    (x2 x3 x5 : (⟨S1024, .f32⟩ : BufTy).Contents (Elt Ideal)) (p : Fin 65536) (q : Fin 1024) :
    Read.val_main_v67 (F := Ideal) x0 x1 x2 x3 x5 (ix2 p q)
      = cenR (fun n : Fin 65536 => x0 (ix2 n q)) (fun n : Fin 65536 => x1 (ix2 n q))
          (x2 (ix1 q)) (x3 (ix1 q)) (x5 (ix1 q)) (x0 (ix2 p q)) (x1 (ix2 p q)) := by
  rw [val_main_v67_apply, val_main_v64_apply, val_main_v60_apply, val_main_v63_apply, v59_eq, v62_eq, v66_eq,
    v50_eq, v57_eq]
  rfl

/-- The reference's imaginary part at (p, q) is the centred form's, of column q and the sample at p. -/
theorem ref_imag (x0 x1 : (⟨S65536x1024, .f32⟩ : BufTy).Contents (Elt Ideal))
    (x3 x4 x6 : (⟨S1024, .f32⟩ : BufTy).Contents (Elt Ideal)) (p : Fin 65536) (q : Fin 1024) :
    Read.val_main_v77 (F := Ideal) x0 x1 x3 x4 x6 (ix2 p q)
      = cenI (fun n : Fin 65536 => x0 (ix2 n q)) (fun n : Fin 65536 => x1 (ix2 n q))
          (x3 (ix1 q)) (x4 (ix1 q)) (x6 (ix1 q)) (x0 (ix2 p q)) (x1 (ix2 p q)) := by
  rw [val_main_v77_apply, val_main_v74_apply, val_main_v70_apply, val_main_v73_apply, v69_eq, v72_eq, v76_eq,
    v50_eq, v57_eq]
  rfl

end Cert.ReferenceIdeal.RefSpec

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.LibBatchNormFold.lean ====
/-
  One layer of the network on a single row of features, over the extended reals: a linear map of the row, a bias,
  batch normalisation with fixed statistics, and the rectifier.  The normalisation is written in two ways.  As the
  statistics give it, the pre-activation z goes to (z - mean) * s + shift with s = gain / sqrt(variance + eps).
  Folded, it is z * s + (shift - mean * s).  The two agree whenever s, mean and shift are real numbers, whatever
  extended real z is: for a real z this is the distributive law, and for z = +inf or -inf both sides are the
  infinity whose sign is that of z * s (or the real shift, when s = 0).  When s is infinite they differ: with
  mean > 0 and z > mean the folded form meets inf - inf while the other is +inf.  A variance that is real and not
  negative, and a positive real eps, make s real.
-/
import Idealize.ShloMosaic.PureOps.Ideal
import proofs.«158268_j23862838297129_2_alg».proof.Proof.LibERealFinite

noncomputable section

namespace Cert.LibBatchNormFold

open Idealize.ShloMosaic Idealize.ShloMosaic.LibERealLaws
open scoped BigOperators

/-- The layer with the normalisation folded into a scale and a shift: output feature q of the row h is
    max((sum_k h k * W k q + b q) * sc q + sh q, 0). -/
def foldedRow {K N : Nat} (h : Fin K → EReal) (W : Fin K → Fin N → EReal) (b sc sh : Fin N → EReal) (q : Fin N) : EReal :=
  max ((∑ k : Fin K, h k * W k q + b q) * sc q + sh q) 0

/-- The layer with the normalisation as the statistics give it: output feature q of the row h is
    max(((sum_k h k * W k q + b q) - mean q) * s q + shift q, 0). -/
def normedRow {K N : Nat} (h : Fin K → EReal) (W : Fin K → Fin N → EReal) (b mean s shift : Fin N → EReal) (q : Fin N) : EReal :=
  max (((∑ k : Fin K, h k * W k q + b q) - mean q) * s q + shift q) 0

/-- z * s + (shift - mean * s) = (z - mean) * s + shift for real s, mean, shift and every extended real z. -/
theorem fold_law (z : EReal) (s mean shift : ℝ) :
    z * (s : EReal) + ((shift : EReal) - (mean : EReal) * (s : EReal)) = (z - (mean : EReal)) * (s : EReal) + (shift : EReal) := by
  induction z using EReal.rec with
  | bot =>
    rcases lt_trichotomy s 0 with hs | hs | hs
    · rw [EReal.bot_sub, EReal.bot_mul_coe_of_neg hs, ← EReal.coe_mul, ← EReal.coe_sub, EReal.top_add_coe, EReal.top_add_coe]
    · subst hs; simp
    · rw [EReal.bot_sub, EReal.bot_mul_coe_of_pos hs, EReal.bot_add, EReal.bot_add]
  | coe z =>
    rw [← EReal.coe_mul, ← EReal.coe_mul, ← EReal.coe_sub, ← EReal.coe_sub, ← EReal.coe_add, ← EReal.coe_mul, ← EReal.coe_add]
    congr 1; ring
  | top =>
    rcases lt_trichotomy s 0 with hs | hs | hs
    · rw [EReal.top_sub_coe, EReal.top_mul_coe_of_neg hs, EReal.bot_add, EReal.bot_add]
    · subst hs; simp
    · rw [EReal.top_sub_coe, EReal.top_mul_coe_of_pos hs, ← EReal.coe_mul, ← EReal.coe_sub, EReal.top_add_coe, EReal.top_add_coe]

/-- The folded layer with scale s and shift (shift - mean * s) is the layer as the statistics give it, when s, mean
    and shift are real at every output feature. -/
theorem foldedRow_eq_normedRow {K N : Nat} (h : Fin K → EReal) (W : Fin K → Fin N → EReal) (b mean s shift : Fin N → EReal)
    (hs : ∀ q, IsReal (s q)) (hm : ∀ q, IsReal (mean q)) (hb : ∀ q, IsReal (shift q)) :
    foldedRow h W b s (fun q => shift q - mean q * s q) = normedRow h W b mean s shift := by
  funext q
  obtain ⟨s', hs'⟩ := hs q
  obtain ⟨m', hm'⟩ := hm q
  obtain ⟨b', hb'⟩ := hb q
  unfold foldedRow normedRow
  beta_reduce
  rw [hs', hm', hb', fold_law]

/-- The word of the normalisation's eps, 1e-5 rounded to 32 bits, denotes a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- gain / sqrt(variance + eps) is real for a real gain, a real variance that is not negative and a positive real eps. -/
theorem scale_isReal {g rv eps : EReal} (hg : IsReal g) (hrv : IsReal rv) (h0 : 0 ≤ rv) (he : ∃ e : ℝ, 0 < e ∧ eps = (e : EReal)) :
    IsReal (g * Ideal.rsqrt (rv + eps)) := by
  obtain ⟨g', rfl⟩ := hg
  obtain ⟨r, rfl⟩ := hrv
  obtain ⟨e, he, rfl⟩ := he
  have hr : 0 ≤ r := EReal.coe_nonneg.mp h0
  have hpos : 0 < r + e := by linarith
  refine ⟨g' * (Real.sqrt (r + e))⁻¹, ?_⟩
  rw [← EReal.coe_add, Ideal.rsqrt_coe, if_neg (not_lt.mpr hpos.le), if_neg hpos.ne', ← EReal.coe_mul]

end Cert.LibBatchNormFold

end
-- ==== Proof.WhitenMath.lean ====
/-
  Complex batch normalisation of one feature column: for real data the raw-moment form of the whitened,
  scaled and shifted sample equals the centred form.

  A column holds N = 65536 real samples (r n, i n).  Write μa = (Σ a)/N for the mean of a column and
  cov a b = Σ (a n − μa)(b n − μb) / N for the mean of the products of deviations.

  1. The three words: the word of N denotes the real 65536, the word of 2 the real 2, and the word of ε a
     positive real e.
  2. Raw moments: Σ (a n − μa)(b n − μb) = Σ a b − N μa μb, because Σ a = N μa and Σ b = N μb and the index type
     has N elements; dividing by N ≠ 0,  cov a b = (Σ a b)/N − μa μb.  With b = a this is the variance identity
     E[(a − μa)²] = E[a²] − μa².  So the covariance entries of the two forms are the same real numbers
     Crr = cov r r + e, Cii = cov i i + e, Cri = cov r i.
  3. Positivity: cov a a ≥ 0 as a mean of squares, and by the Cauchy–Schwarz inequality
     (Σ f g)² ≤ (Σ f²)(Σ g²) for the deviations, (cov r i)² ≤ cov r r · cov i i.  Hence
       Crr Cii − Cri² = (cov r r · cov i i − (cov r i)²) + e (cov r r + cov i i) + e² ≥ e² > 0,
     so s = √(Crr Cii − Cri²) is a positive real, Crr + Cii + 2 s > 0, t = √(Crr + Cii + 2 s) is a positive real,
     and the denominator s t is a nonzero real: the three entries of the inverse square root are the real numbers
     (Cii + s)/(s t), (Crr + s)/(s t), −Cri/(s t).
  4. With every quantity a real number, both forms are coercions of real expressions, and with the entries
     w1, w2, w3 of the inverse square root kept as opaque reals
       (g1 w1 + g2 w3) x + (g1 w3 + g2 w2) y + (b − (g1 w1 + g2 w3) μr − (g1 w3 + g2 w2) μi)
         = g1 (w1 (x − μr) + w3 (y − μi)) + g2 (w3 (x − μr) + w2 (y − μi)) + b
     is an identity of commutative rings.
-/
import Mathlib
import proofs.«158268_j23862838297129_2_alg».proof.Proof.Spec
import proofs.«158268_j23862838297129_2_alg».proof.Proof.LibERealFinite
import proofs.«158268_j23862838297129_2_alg».proof.Proof.LibBatchNormFold

noncomputable section

open scoped BigOperators

namespace Cert.WhitenMath

open Cert.Whiten Idealize.ShloMosaic Idealize.ShloMosaic.LibERealLaws

/-! ### The three words -/

/-- The word of the sample count denotes the real 65536 = 2^16. -/
theorem nW_eq : nW = ((65536 : ℝ) : EReal) := by
  simp [Ideal.ofBits, Ideal.ieee, -EReal.coe_mul]; norm_num

/-- The word of 2 denotes the real 2. -/
theorem twoW_eq : twoW = ((2 : ℝ) : EReal) := by
  simp [Ideal.ofBits, Ideal.ieee, -EReal.coe_mul]; norm_num

/-- The word of ε denotes a positive real. -/
theorem epsW_pos : ∃ e : ℝ, 0 < e ∧ epsW = (e : EReal) := Cert.LibBatchNormFold.eps_pos

/-! ### Real algebra of means and covariances -/

section RealAlgebra

variable {ι : Type} [Fintype ι]

/-- The mean μa = (Σ a)/N of a real column. -/
def mu (N : ℝ) (a : ι → ℝ) : ℝ := (∑ n, a n) / N

/-- The mean of the products of deviations, cov a b = Σ (a n − μa)(b n − μb) / N. -/
def cov (N : ℝ) (a b : ι → ℝ) : ℝ := (∑ n, (a n - mu N a) * (b n - mu N b)) / N

/-- Raw-moment form of the covariance: when the index type has N ≠ 0 elements,
    Σ (a n − μa)(b n − μb) / N = (Σ a b)/N − μa μb. -/
theorem cov_eq_raw {N : ℝ} (hN : (Fintype.card ι : ℝ) = N) (hN0 : N ≠ 0) (a b : ι → ℝ) :
    cov N a b = (∑ n, a n * b n) / N - mu N a * mu N b := by
  have ha : ∑ n, a n = N * mu N a := by unfold mu; field_simp
  have hb : ∑ n, b n = N * mu N b := by unfold mu; field_simp
  have e : ∀ n, (a n - mu N a) * (b n - mu N b)
      = a n * b n - mu N b * a n - mu N a * b n + mu N a * mu N b := fun n => by ring
  have h : ∑ n, (a n - mu N a) * (b n - mu N b) = (∑ n, a n * b n) - N * (mu N a * mu N b) := by
    simp only [e, Finset.sum_add_distrib, Finset.sum_sub_distrib, ← Finset.mul_sum, Finset.sum_const,
      Finset.card_univ, nsmul_eq_mul, hN]
    rw [ha, hb]; ring
  unfold cov
  rw [h]; field_simp

/-- A variance is not negative: it is a mean of squares. -/
theorem cov_self_nonneg {N : ℝ} (hN : 0 < N) (a : ι → ℝ) : 0 ≤ cov N a a :=
  div_nonneg (Finset.sum_nonneg fun _ _ => mul_self_nonneg _) hN.le

/-- Cauchy–Schwarz for the deviations: (cov a b)² ≤ cov a a · cov b b. -/
theorem cov_sq_le {N : ℝ} (hN : 0 < N) (a b : ι → ℝ) :
    cov N a b * cov N a b ≤ cov N a a * cov N b b := by
  have cs := Finset.sum_mul_sq_le_sq_mul_sq Finset.univ (fun n => a n - mu N a) (fun n => b n - mu N b)
  simp only [pow_two] at cs
  unfold cov
  rw [div_mul_div_comm, div_mul_div_comm]
  gcongr

/-- The regularised determinant is positive: (cov a a + e)(cov b b + e) − (cov a b)² ≥ e² > 0. -/
theorem det_pos {N e : ℝ} (hN : 0 < N) (he : 0 < e) (a b : ι → ℝ) :
    0 < (cov N a a + e) * (cov N b b + e) - cov N a b * cov N a b := by
  have h1 := cov_sq_le hN a b
  have h2 := cov_self_nonneg hN a
  have h3 := cov_self_nonneg hN b
  have h4 : (cov N a a + e) * (cov N b b + e) - cov N a b * cov N a b
      = (cov N a a * cov N b b - cov N a b * cov N a b) + e * cov N a a + e * cov N b b + e * e := by ring
  have h5 := mul_pos he he
  have h6 := mul_nonneg he.le h2
  have h7 := mul_nonneg he.le h3
  rw [h4]; linarith

end RealAlgebra

/-! ### The inverse square root of a real covariance with positive determinant -/

/-- For real Crr, Cii, Cri with Crr Cii − Cri² > 0 and Crr + Cii ≥ 0 the three entries of the inverse square
    root are real: s = √det > 0, t = √(Crr + Cii + 2 s) > 0, and the entries are quotients by s t ≠ 0. -/
theorem W_coe {Crr Cii Cri : ℝ} (hdet : 0 < Crr * Cii - Cri * Cri) (htr : 0 ≤ Crr + Cii) :
    ∃ w1 w2 w3 : ℝ, wRR (Crr : EReal) (Cii : EReal) (Cri : EReal) = (w1 : EReal)
      ∧ wII (Crr : EReal) (Cii : EReal) (Cri : EReal) = (w2 : EReal)
      ∧ wRI (Crr : EReal) (Cii : EReal) (Cri : EReal) = (w3 : EReal) := by
  obtain ⟨s, hs⟩ : ∃ s : ℝ, s = Real.sqrt (Crr * Cii - Cri * Cri) := ⟨_, rfl⟩
  have hs0 : 0 < s := hs ▸ Real.sqrt_pos.mpr hdet
  have hroot : detRoot (Crr : EReal) (Cii : EReal) (Cri : EReal) = (s : EReal) := by
    unfold detRoot
    rw [← EReal.coe_mul, ← EReal.coe_mul, ← EReal.coe_sub, Ideal.sqrt_coe, if_neg (not_lt.mpr hdet.le), hs]
  have hpos : 0 < Crr + Cii + 2 * s := by linarith
  obtain ⟨t, ht⟩ : ∃ t : ℝ, t = Real.sqrt (Crr + Cii + 2 * s) := ⟨_, rfl⟩
  have ht0 : 0 < t := ht ▸ Real.sqrt_pos.mpr hpos
  have hden : denom (Crr : EReal) (Cii : EReal) (Cri : EReal) = ((s * t : ℝ) : EReal) := by
    unfold denom
    rw [hroot, twoW_eq, ← EReal.coe_add, ← EReal.coe_mul, ← EReal.coe_add, Ideal.sqrt_coe,
      if_neg (not_lt.mpr hpos.le), ← EReal.coe_mul, ht]
  have hst : s * t ≠ 0 := (mul_pos hs0 ht0).ne'
  refine ⟨(Cii + s) / (s * t), (Crr + s) / (s * t), (-Cri) / (s * t), ?_, ?_, ?_⟩
  · unfold wRR; rw [hden, hroot, ← EReal.coe_add, IsReal.div_coe _ hst]
  · unfold wII; rw [hden, hroot, ← EReal.coe_add, IsReal.div_coe _ hst]
  · unfold wRI; rw [hden, ← EReal.coe_neg, IsReal.div_coe _ hst]

/-! ### The statistics of a real column, as extended reals -/

section Coe

variable {ι : Type} [Fintype ι]

/-- A sum of coercions is the coercion of the sum. -/
theorem sum_coe (a : ι → ℝ) : ∑ n, ((a n : ℝ) : EReal) = ((∑ n, a n : ℝ) : EReal) :=
  (coe_finset_sum Finset.univ a).symm

/-- A sum of products of coercions is the coercion of the sum of products. -/
theorem sum_mul_coe (a b : ι → ℝ) :
    ∑ n, ((a n : ℝ) : EReal) * ((b n : ℝ) : EReal) = ((∑ n, a n * b n : ℝ) : EReal) := by
  rw [coe_finset_sum]; exact Finset.sum_congr rfl fun n _ => (EReal.coe_mul _ _).symm

/-- Division of a real by the word of N is real division by 65536. -/
theorem div_nW (S : ℝ) : Ideal.div (S : EReal) nW = ((S / 65536 : ℝ) : EReal) := by
  rw [nW_eq, IsReal.div_coe S (by norm_num)]

/-- The mean of a real column is the coercion of its real mean. -/
theorem mean_coe (a : ι → ℝ) : mean (fun n => ((a n : ℝ) : EReal)) = ((mu 65536 a : ℝ) : EReal) := by
  unfold mean mu; rw [sum_coe, div_nW]

/-- The centred covariance entry of two real columns is the coercion of cov. -/
theorem cenCov_coe (a b : ι → ℝ) :
    cenCov (fun n => ((a n : ℝ) : EReal)) (fun n => ((b n : ℝ) : EReal)) = ((cov 65536 a b : ℝ) : EReal) := by
  have h : ∀ n, (((a n : ℝ) : EReal) - ((mu 65536 a : ℝ) : EReal)) * (((b n : ℝ) : EReal) - ((mu 65536 b : ℝ) : EReal))
      = (((a n - mu 65536 a) * (b n - mu 65536 b) : ℝ) : EReal) := fun n => by
    rw [← EReal.coe_sub, ← EReal.coe_sub, ← EReal.coe_mul]
  unfold cenCov
  rw [mean_coe, mean_coe]
  simp only [h]
  rw [← coe_finset_sum, div_nW]
  rfl

/-- The centred variance entry of a real column is the coercion of cov a a + e. -/
theorem cenVar_coe {e : ℝ} (he : epsW = (e : EReal)) (a : ι → ℝ) :
    cenVar (fun n => ((a n : ℝ) : EReal)) = ((cov 65536 a a + e : ℝ) : EReal) := by
  have h := cenCov_coe a a
  unfold cenCov at h
  unfold cenVar
  rw [h, he, ← EReal.coe_add]

/-- The quotient of the sum of a real column by the word of N is the coercion of its real mean. -/
theorem div_sum_coe (a : ι → ℝ) : Ideal.div (∑ n, ((a n : ℝ) : EReal)) nW = ((mu 65536 a : ℝ) : EReal) :=
  mean_coe a

/-- The raw-moment covariance entry of two real columns is the coercion of cov. -/
theorem rawCov_coe (hcard : (Fintype.card ι : ℝ) = 65536) (a b : ι → ℝ) :
    rawCov (∑ n, ((a n : ℝ) : EReal) * ((b n : ℝ) : EReal)) (∑ n, ((a n : ℝ) : EReal)) (∑ n, ((b n : ℝ) : EReal))
      = ((cov 65536 a b : ℝ) : EReal) := by
  unfold rawCov
  rw [div_sum_coe, div_sum_coe, sum_mul_coe, div_nW, ← EReal.coe_mul, ← EReal.coe_sub,
    cov_eq_raw hcard (by norm_num)]

/-- The raw-moment variance entry of a real column is the coercion of cov a a + e. -/
theorem rawVar_coe (hcard : (Fintype.card ι : ℝ) = 65536) {e : ℝ} (he : epsW = (e : EReal)) (a : ι → ℝ) :
    rawVar (∑ n, ((a n : ℝ) : EReal) * ((a n : ℝ) : EReal)) (∑ n, ((a n : ℝ) : EReal))
      = ((cov 65536 a a + e : ℝ) : EReal) := by
  have h := rawCov_coe hcard a a
  unfold rawCov at h
  unfold rawVar
  rw [h, he, ← EReal.coe_add]

end Coe

/-! ### The two forms agree on real data -/

/-- For real columns over an index type with 65536 elements, real scale entries, real shifts and a real
    sample (x, y), the raw-moment, folded-affine form equals the centred form, in both components. -/
theorem raw_eq_cen_of_card {ι : Type} [Fintype ι] (hcard : (Fintype.card ι : ℝ) = 65536)
    (R I : ι → EReal) (hR : ∀ n, IsReal (R n)) (hI : ∀ n, IsReal (I n))
    {grr gri gii br bi x y : EReal} (hgrr : IsReal grr) (hgri : IsReal gri) (hgii : IsReal gii)
    (hbr : IsReal br) (hbi : IsReal bi) (hx : IsReal x) (hy : IsReal y) :
    rawR (∑ n, R n) (∑ n, I n) (∑ n, R n * R n) (∑ n, I n * I n) (∑ n, R n * I n) grr gri br x y
        = cenR R I grr gri br x y
      ∧ rawI (∑ n, R n) (∑ n, I n) (∑ n, R n * R n) (∑ n, I n * I n) (∑ n, R n * I n) gri gii bi x y
        = cenI R I gri gii bi x y := by
  obtain ⟨r, rfl⟩ := IsReal.exists_fun hR
  obtain ⟨i, rfl⟩ := IsReal.exists_fun hI
  obtain ⟨g1, rfl⟩ := hgrr
  obtain ⟨g2, rfl⟩ := hgri
  obtain ⟨g3, rfl⟩ := hgii
  obtain ⟨b1, rfl⟩ := hbr
  obtain ⟨b2, rfl⟩ := hbi
  obtain ⟨x', rfl⟩ := hx
  obtain ⟨y', rfl⟩ := hy
  obtain ⟨e, he0, he⟩ := epsW_pos
  have hN : (0 : ℝ) < 65536 := by norm_num
  have hdet := det_pos hN he0 r i
  have htr : 0 ≤ (cov 65536 r r + e) + (cov 65536 i i + e) := by
    have h2 := cov_self_nonneg hN r
    have h3 := cov_self_nonneg hN i
    linarith
  obtain ⟨w1, w2, w3, h1, h2, h3⟩ := W_coe hdet htr
  have eRR := rawVar_coe hcard he r
  have eII := rawVar_coe hcard he i
  have eRI := rawCov_coe hcard r i
  have cRR := cenVar_coe he r
  have cII := cenVar_coe he i
  have cRI := cenCov_coe r i
  have mR := mean_coe r
  have mI := mean_coe i
  have dR := div_sum_coe r
  have dI := div_sum_coe i
  beta_reduce
  constructor
  · unfold rawR cenR
    dsimp only
    rw [eRR, eII, eRI, cRR, cII, cRI, mR, mI, dR, dI, h1, h2, h3]
    simp only [← EReal.coe_mul, ← EReal.coe_add, ← EReal.coe_sub]
    rw [EReal.coe_eq_coe_iff]; ring
  · unfold rawI cenI
    dsimp only
    rw [eRR, eII, eRI, cRR, cII, cRI, mR, mI, dR, dI, h1, h2, h3]
    simp only [← EReal.coe_mul, ← EReal.coe_add, ← EReal.coe_sub]
    rw [EReal.coe_eq_coe_iff]; ring

/-- The same for a column of 65536 samples indexed by Fin 65536 (which has 65536 elements). -/
theorem raw_eq_cen (R I : Fin 65536 → EReal) (hR : ∀ n, IsReal (R n)) (hI : ∀ n, IsReal (I n))
    {grr gri gii br bi x y : EReal} (hgrr : IsReal grr) (hgri : IsReal gri) (hgii : IsReal gii)
    (hbr : IsReal br) (hbi : IsReal bi) (hx : IsReal x) (hy : IsReal y) :
    rawR (∑ n, R n) (∑ n, I n) (∑ n, R n * R n) (∑ n, I n * I n) (∑ n, R n * I n) grr gri br x y
        = cenR R I grr gri br x y
      ∧ rawI (∑ n, R n) (∑ n, I n) (∑ n, R n * R n) (∑ n, I n * I n) (∑ n, R n * I n) gri gii bi x y
        = cenI R I gri gii bi x y :=
  raw_eq_cen_of_card (by rw [Fintype.card_fin]; norm_num) R I hR hI hgrr hgri hgii hbr hbi hx hy

end Cert.WhitenMath

end
-- ==== Proof.FiniteInputs.lean ====
/-
  From the finiteness precondition to "every entry is a real".

  The precondition is one boolean: for each of the seven inputs x, the conjunction over all entries of
  the test |x_i| < +∞, and then the conjunction of the seven results.  A conjunction of one-bit words is 1
  exactly when both operands are 1, and a conjunction folded over a whole array, started from 1, is 1 only
  if every entry is 1.  So from the precondition being 1 we get, for every input x and every index i, that
  the ordered comparison max(x_i, -x_i) < +∞ answers true; an extended real whose absolute value is below
  +∞ is neither +∞ nor -∞, that is, it is the coercion of a real number.
-/
import proofs.«158268_j23862838297129_2_alg».proof.Pre_finite_inputs
import proofs.«158268_j23862838297129_2_alg».proof.Proof.LibERealFinite
import Idealize.ShloMosaic.Lib.ReduceAll
import Idealize.ShloMosaic.Lib.ValueIdx

noncomputable section

namespace Cert.FiniteInputs

open Idealize.ShloMosaic Idealize.ShloMosaic.LibERealLaws Idealize.ShloMosaic.ValueIdx Cert.Pre_finite_inputs

/-- The scalar shape has exactly one index (the empty tuple of coordinates). -/
instance subsingleton_scalar_idx : Subsingleton S_.Idx := ⟨fun a b => funext fun d => d.elim0⟩

/-- A conjunction of two one-bit scalars that is 1 has both operands 1. -/
theorem both_of_andi (x y : IVec S_ 1) (h : andi x y ix0 = 1#1) : x ix0 = 1#1 ∧ y ix0 = 1#1 :=
  IntOp.andi_eq_one.1 h

/-- One finiteness test read back.  If the conjunction over all indices i of the comparison
    max(a_i, -a_i) < +∞ (the right side being the 32-bit pattern 0x7F800000 broadcast from a scalar) is 1,
    then every a_i is real. -/
theorem isReal_of_all_lt_inf {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) :
    ∀ i, IsReal (a i) := by
  intro i
  -- the fold of the conjunction is 1, so the comparison at index i answers 1
  have h1 := Host.reduce_andi_all _ _ hr hu ix0 e i
  -- at index i the comparison is max(a_i, -a_i) < +∞ on extended reals
  exact isReal_of_cmp_abs_lt_inf h1

/-- The precondition decoded: if the finiteness predicate of the seven inputs is 1, every entry of every
    input is a real number. -/
theorem all_real [Cert.Pre_finite_inputs.Facts] (a0 a1 : FVec Ideal S65536x1024 .f32) (a2 a3 a4 a5 a6 : FVec Ideal S1024 .f32)
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have h0 := congrFun h ix0
  dsimp only [fn, fn_part1] at h0
  -- the predicate is ((((((t0 ∧ t1) ∧ t2) ∧ t3) ∧ t4) ∧ t5) ∧ t6): split from the outside in
  obtain ⟨h05, t6⟩ := both_of_andi _ _ h0
  obtain ⟨h04, t5⟩ := both_of_andi _ _ h05
  obtain ⟨h03, t4⟩ := both_of_andi _ _ h04
  obtain ⟨h02, t3⟩ := both_of_andi _ _ h03
  obtain ⟨h01, t2⟩ := both_of_andi _ _ h02
  obtain ⟨t0, t1⟩ := both_of_andi _ _ h01
  exact ⟨isReal_of_all_lt_inf a0 _ _ _ t0, isReal_of_all_lt_inf a1 _ _ _ t1,
    isReal_of_all_lt_inf a2 _ _ _ t2, isReal_of_all_lt_inf a3 _ _ _ t3,
    isReal_of_all_lt_inf a4 _ _ _ t4, isReal_of_all_lt_inf a5 _ _ _ t5,
    isReal_of_all_lt_inf a6 _ _ _ t6⟩

end Cert.FiniteInputs

end
-- ==== Proof.Bridge.lean ====
/-
  The reference's results are the idealized kernel's, entry by entry.

  At entry (p, q) the reference computes the centred form of column q (means, covariance of the deviations, whitening,
  scale and shift) and the kernel the raw-moment form of the same column's five totals.  When every input is a real
  number — which is what the precondition says — the two forms agree: the covariance of the deviations is the raw
  second moment minus the product of the means, the regularised covariance matrix has a positive determinant (the
  Cauchy–Schwarz inequality and ε > 0), so its inverse square root has real entries, and folding the scale matrix and the
  centring into one affine map is then an identity of real numbers.
-/
import proofs.«158268_j23862838297129_2_alg».proof.Proof.KValue
import proofs.«158268_j23862838297129_2_alg».proof.Proof.RefSpec
import proofs.«158268_j23862838297129_2_alg».proof.Proof.WhitenMath
import proofs.«158268_j23862838297129_2_alg».proof.Proof.FiniteInputs
import proofs.«158268_j23862838297129_2_alg».proof.Proof.Gen.Pre_finite_inputs

set_option maxRecDepth 16384

noncomputable section

open Idealize.ShloMosaic Idealize.ShloMosaic.TcCoe Idealize.SL.Sem Idealize.ShloMosaic.ValueIdx
open Idealize.ShloMosaic.LibERealLaws
open scoped BigOperators

namespace Cert.Bridge

open Cert.KernelIdeal.KValue Cert.Whiten

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The hypothesis that the two memories agree on the seven arguments. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The precondition on the kernel's memory: every float input finite. -/
abbrev Finite : Prop :=
  Cert.Pre_finite_inputs.fn (F := Ideal) (aR m c) (aI m c) (gRR m c) (gRI m c) (gII m c) (bRe m c) (bIm m c) = (fun _ => 1#1)

/-- The reference's first result is the kernel's first result. -/
theorem real_eq (hpre : Finite m c) (hag : Agree m m' c) :
    Cert.ReferenceIdeal.Value.res_main_v67 m' c = Cert.KernelIdeal.Gen.W3 m ρ c (Proc.devRef .tc Cert.KernelIdeal.main_v77_0) := by
  obtain ⟨e0, e1, e2, e3, e4, e5, e6⟩ := hag
  obtain ⟨h0, h1, h2, h3, h4, h5, h6⟩ := Cert.FiniteInputs.all_real _ _ _ _ _ _ _ hpre
  rw [Cert.ReferenceIdeal.Read.val_main_v67_eq, e0, e1, e2, e3, e5]
  funext i
  obtain ⟨p, q, rfl⟩ : ∃ (p : Fin 65536) (q : Fin 1024), i = ix2 p q := ⟨i 0, i 1, eq_ix2 i⟩
  refine (Cert.ReferenceIdeal.RefSpec.ref_real _ _ _ _ _ p q).trans ?_
  refine Eq.trans ?_ (kernel_real m ρ c p q).symm
  exact ((Cert.WhitenMath.raw_eq_cen (fun n => aR m c (ix2 n q)) (fun n => aI m c (ix2 n q)) (fun n => h0 _) (fun n => h1 _)
    (h2 (ix1 q)) (h3 (ix1 q)) (h4 (ix1 q)) (h5 (ix1 q)) (h6 (ix1 q)) (h0 (ix2 p q)) (h1 (ix2 p q))).1).symm

/-- The reference's second result is the kernel's second result. -/
theorem imag_eq (hpre : Finite m c) (hag : Agree m m' c) :
    Cert.ReferenceIdeal.Value.res_main_v77 m' c = Cert.KernelIdeal.Gen.W3 m ρ c (Proc.devRef .tc Cert.KernelIdeal.main_v77_1) := by
  obtain ⟨e0, e1, e2, e3, e4, e5, e6⟩ := hag
  obtain ⟨h0, h1, h2, h3, h4, h5, h6⟩ := Cert.FiniteInputs.all_real _ _ _ _ _ _ _ hpre
  rw [Cert.ReferenceIdeal.Read.val_main_v77_eq, e0, e1, e3, e4, e6]
  funext i
  obtain ⟨p, q, rfl⟩ : ∃ (p : Fin 65536) (q : Fin 1024), i = ix2 p q := ⟨i 0, i 1, eq_ix2 i⟩
  refine (Cert.ReferenceIdeal.RefSpec.ref_imag _ _ _ _ _ p q).trans ?_
  refine Eq.trans ?_ (kernel_imag m ρ c p q).symm
  exact ((Cert.WhitenMath.raw_eq_cen (fun n => aR m c (ix2 n q)) (fun n => aI m c (ix2 n q)) (fun n => h0 _) (fun n => h1 _)
    (h2 (ix1 q)) (h3 (ix1 q)) (h4 (ix1 q)) (h5 (ix1 q)) (h6 (ix1 q)) (h0 (ix2 p q)) (h1 (ix2 p q))).2).symm

end Cert.Bridge

end
-- ==== Proof.lean ====
/-
  A complex batch normalisation over f32[65536,1024] real and imaginary parts: per feature column, the 2×2 covariance of
  the (real, imaginary) pair is regularised by ε on its diagonal, its inverse square root W is applied to the centred
  samples, and the result is scaled by a symmetric 2×2 matrix Γ and shifted.

  The kernel does this in two passes over the data.  The first accumulates, per column, the raw totals Σr, Σi, Σr², Σi²,
  Σr·i (two cores, 32 blocks of 1024 rows each, reset at the first block of a core's run); a stretch of host
  arithmetic on [1,1024] rows turns them into means, the covariance as  E[ab] − μa·μb, the closed-form inverse square
  root, the folded matrix A = Γ·W and the shifts b − A·μ; the second pass computes A·(x, y) + (b − A·μ) elementwise.
  The reference centres the samples first and takes the covariance of the deviations.

  At the ideal instance both are functions on the extended reals, and for finite inputs they agree:
    * a column's totals regroup to sums over all 65536 samples (addition is commutative and associative);
    * the mean of the products of deviations is the raw second moment minus the product of the means (N = 65536 samples);
    * det = (var_r + ε)(var_i + ε) − cov² ≥ ε² > 0 by the Cauchy–Schwarz inequality, so √det, the trace term and the
      common denominator are positive reals, the entries of W are real, and no division by zero or root of a negative
      occurs — this is where the precondition (every input finite) is used;
    * with real W, folding Γ·W and the centring is an identity of real numbers.
  The kernel's idealization rewrote nothing, so `preserves` is trivial; the three frames are the generated ones (the
  reference's from its generated run).
-/
import proofs.«158268_j23862838297129_2_alg».proof.Defs
import proofs.«158268_j23862838297129_2_alg».proof.Proof.Gen.Kernel
import proofs.«158268_j23862838297129_2_alg».proof.Proof.Gen.Kernel.Skeleton
import proofs.«158268_j23862838297129_2_alg».proof.Proof.Gen.Kernel.Launch
import proofs.«158268_j23862838297129_2_alg».proof.Proof.Gen.Kernel.Points
import proofs.«158268_j23862838297129_2_alg».proof.Proof.Gen.Kernel.Frame
import proofs.«158268_j23862838297129_2_alg».proof.Proof.Gen.KernelIdeal
import proofs.«158268_j23862838297129_2_alg».proof.Proof.Gen.KernelIdeal.Skeleton
import proofs.«158268_j23862838297129_2_alg».proof.Proof.Gen.KernelIdeal.Launch
import proofs.«158268_j23862838297129_2_alg».proof.Proof.Gen.KernelIdeal.Points
import proofs.«158268_j23862838297129_2_alg».proof.Proof.Gen.KernelIdeal.Frame
import proofs.«158268_j23862838297129_2_alg».proof.Proof.Gen.ReferenceIdeal
import proofs.«158268_j23862838297129_2_alg».proof.Proof.Gen.Pre_finite_inputs
import proofs.«158268_j23862838297129_2_alg».proof.Proof.Gen.ReferenceIdeal.Run
import proofs.«158268_j23862838297129_2_alg».proof.Proof.Gen.ReferenceIdeal.Read
import proofs.«158268_j23862838297129_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the seven arguments, all finite, the two idealized programs end with equal results:
    the kernel's two arrays after its second pass, which the reference's two results equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W3 m ρ c (Proc.devRef .tc Cert.KernelIdeal.main_v77_0),
    fun c => Cert.KernelIdeal.Gen.W3 m ρ c (Proc.devRef .tc Cert.KernelIdeal.main_v77_1),
    Cert.KernelIdeal.KValue.run_W3 (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact Cert.Bridge.real_eq m ρ m' c (hpre c) (hagree c)
  · exact Cert.Bridge.imag_eq m ρ m' c (hpre c) (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
